-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x128 : Shape := ⟨2, ![64, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg8 : FVec F S64 .f32) (main_arg9 : FVec F S64x128 .f32) (main_arg10 : FVec F S64x64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg9
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  main_v48

def fn_part1 {F : FTy → Type} [FloatOps F] (main_arg5 : FVec F S64 .f32) (main_arg6 : FVec F S64 .f32) (main_arg7 : FVec F S64 .f32) (main_arg8 : FVec F S64 .f32) (main_arg9 : FVec F S64x128 .f32) (main_arg10 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : IVec S2x800000 32) (main_arg2 : FVec F S64x64 .f32) (main_arg3 : FVec F S64x64 .f32) (main_arg4 : FVec F S64 .f32) (main_arg5 : FVec F S64 .f32) (main_arg6 : FVec F S64 .f32) (main_arg7 : FVec F S64 .f32) (main_arg8 : FVec F S64 .f32) (main_arg9 : FVec F S64x128 .f32) (main_arg10 : FVec F S64x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x128 : Shape := ⟨2, ![64, 128]⟩
abbrev S1x800000 : Shape := ⟨2, ![1, 800000]⟩
abbrev S800000 : Shape := ⟨1, ![800000]⟩
abbrev S5000x64 : Shape := ⟨2, ![5000, 64]⟩
abbrev S_ : Shape := ⟨0, ![]⟩
abbrev S800000x1 : Shape := ⟨2, ![800000, 1]⟩
abbrev S800000x64 : Shape := ⟨2, ![800000, 64]⟩
abbrev S800000x65 : Shape := ⟨2, ![800000, 65]⟩
abbrev S50000x65 : Shape := ⟨2, ![50000, 65]⟩
abbrev S50000x1 : Shape := ⟨2, ![50000, 1]⟩
abbrev S1x64 : Shape := ⟨2, ![1, 64]⟩
abbrev S128x64 : Shape := ⟨2, ![128, 64]⟩
abbrev S2000x64 : Shape := ⟨2, ![2000, 64]⟩
abbrev S2000x1 : Shape := ⟨2, ![2000, 1]⟩
abbrev S2000 : Shape := ⟨1, ![2000]⟩
abbrev S2000x128 : Shape := ⟨2, ![2000, 128]⟩

abbrev nBuf : Space → Nat
  | .hbm => 45
  | .vmem => 21
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x128, .f32⟩
  | .hbm, ⟨10, _⟩ => ⟨S64x64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S64x64, .f32⟩
  | .hbm, ⟨16, _⟩ => ⟨S64x64, .f32⟩
  | .hbm, ⟨17, _⟩ => ⟨S50000x64, .bf16⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .bf16⟩
  | .hbm, ⟨27, _⟩ => ⟨S800000x64, .f32⟩
  | .hbm, ⟨28, _⟩ => ⟨S_, .f32⟩
  | .hbm, ⟨29, _⟩ => ⟨S800000x1, .f32⟩
  | .hbm, ⟨30, _⟩ => ⟨S800000x65, .f32⟩
  | .hbm, ⟨31, _⟩ => ⟨S_, .f32⟩
  | .hbm, ⟨32, _⟩ => ⟨S50000x65, .f32⟩
  | .hbm, ⟨33, _⟩ => ⟨S800000x1, .i32⟩
  | .hbm, ⟨34, _⟩ => ⟨S50000x65, .f32⟩
  | .hbm, ⟨35, _⟩ => ⟨S50000x64, .f32⟩
  | .hbm, ⟨36, _⟩ => ⟨S50000x1, .f32⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S128x64, .f32⟩
  | .hbm, ⟨43, _⟩ => ⟨S64x64, .f32⟩
  | .hbm, ⟨44, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64x64, .f32⟩
  | .local _ .vmem, ⟨4, _⟩ => ⟨S5000x64, .bf16⟩
  | .local _ .vmem, ⟨5, _⟩ => ⟨S5000x64, .bf16⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x1, .f32⟩
  | .local _ .vmem, ⟨11, _⟩ => ⟨S2000x1, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S128x64, .f32⟩
  | .local _ .vmem, ⟨18, _⟩ => ⟨S64x64, .f32⟩
  | .local _ .vmem, ⟨19, _⟩ => ⟨S2000x64, .f32⟩
  | .local _ .vmem, ⟨20, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg10_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem10_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S64x64_S64x64_1_0 : S64x64.Transposes [1, 0] S64x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  packedbf16_S5000x64_S5000x64_0_0 : (Rect.unit (s := S5000x64) ![0, 0] S5000x64.size inb_S5000x64_S5000x64_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  concatenates_S800000x64_S800000x1_S800000x65_d1 : Shape.Concatenates [S800000x64, S800000x1] S800000x65 1
  bcast_S_S50000x65 : S_.BroadcastsInDim S50000x65 (![] : Fin 0 → Fin S50000x65.rank)
  slices_S50000x65_S50000x64_0_0 : S50000x65.Slices ![0, 0] S50000x64
  slices_S50000x65_S50000x1_0_64 : S50000x65.Slices ![0, 64] S50000x1
  shapeCasts_S64_S1x64 : S64.ShapeCasts S1x64
  transposes_S64x128_S128x64_1_0 : S64x128.Transposes [1, 0] S128x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S2000x1_S2000x64 : S2000x1.Broadcasts S2000x64
  reduces_S2000x64_S2000 : S2000x64.Reduces [1] S2000
  shapeCasts_S2000_S2000x1 : S2000.ShapeCasts S2000x1
  broadcasts_S1x64_S2000x64 : S1x64.Broadcasts S2000x64
  concatenates_S2000x64_S2000x64_S2000x128_d1 : Shape.Concatenates [S2000x64, S2000x64] S2000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x65_S800000x1_S800000x65_1_0_0_1_wf : ScatterDims.WF S50000x65 S800000x1 S800000x65 [1] [0] [0] 1
  dot_S2000x128_S128x64_S2000x64_1_0_0_1_n_n_wf : DotDims.WF S2000x128 S128x64 S2000x64 [1] [0] [0] [1] [] []
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .bf16 = 32 ∨ (Rect.block (s := S50000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x64.size a ≤ S128x64.size a
  hwx1_8 : ∀ i : grid1.Coords, EltTy.bits .f32 = 32 ∨ (Rect.block (s := S128x64) S128x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x64.size a ≤ S64x64.size a
  hwx1_9 : ∀ i : grid1.Coords, EltTy.bits .f32 = 32 ∨ (Rect.block (s := S64x64) S64x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x64.size a ≤ S50000x64.size a
  hwx1_10 : ∀ i : grid1.Coords, EltTy.bits .f32 = 32 ∨ (Rect.block (s := S50000x64) S2000x64.size (cc1_transform_10 i) (hinb1_10 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x65_S800000x1_S800000x65_1_0_0_1 : ScatterDims S50000x65 S800000x1 S800000x65 where
  updateWindowDims := [1]
  insertedWindowDims := [0]
  scatterDimsToOperandDims := [0]
  indexVectorDim := 1
  wf := scatter_S50000x65_S800000x1_S800000x65_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v27) S128x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v28) S64x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v29) S2000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x128 : Shape := ⟨2, ![64, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩
abbrev S50000x128 : Shape := ⟨2, ![50000, 128]⟩
abbrev S128x64 : Shape := ⟨2, ![128, 64]⟩

abbrev nBuf : Space → Nat
  | .hbm => 118
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x128, .f32⟩
  | .hbm, ⟨10, _⟩ => ⟨S64x64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S64x64, .f32⟩
  | .hbm, ⟨25, _⟩ => ⟨S800000x64, .f32⟩
  | .hbm, ⟨26, _⟩ => ⟨S_, .f32⟩
  | .hbm, ⟨27, _⟩ => ⟨S800000x64, .f32⟩
  | .hbm, ⟨28, _⟩ => ⟨S800000x64, .f32⟩
  | .hbm, ⟨29, _⟩ => ⟨S64x64, .f32⟩
  | .hbm, ⟨30, _⟩ => ⟨S800000x64, .f32⟩
  | .hbm, ⟨31, _⟩ => ⟨S_, .f32⟩
  | .hbm, ⟨32, _⟩ => ⟨S50000x64, .f32⟩
  | .hbm, ⟨33, _⟩ => ⟨S800000x1, .i32⟩
  | .hbm, ⟨34, _⟩ => ⟨S50000x64, .f32⟩
  | .hbm, ⟨35, _⟩ => ⟨S_, .f32⟩
  | .hbm, ⟨36, _⟩ => ⟨S800000, .f32⟩
  | .hbm, ⟨37, _⟩ => ⟨S_, .f32⟩
  | .hbm, ⟨38, _⟩ => ⟨S50000, .f32⟩
  | .hbm, ⟨39, _⟩ => ⟨S800000x1, .i32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000x1, .f32⟩
  | .hbm, ⟨45, _⟩ => ⟨S50000x64, .f32⟩
  | .hbm, ⟨46, _⟩ => ⟨S50000x64, .f32⟩
  | .hbm, ⟨47, _⟩ => ⟨S_, .f32⟩
  | .hbm, ⟨48, _⟩ => ⟨S50000, .f32⟩
  | .hbm, ⟨49, _⟩ => ⟨S50000x1, .f32⟩
  | .hbm, ⟨50, _⟩ => ⟨S_, .f32⟩
  | .hbm, ⟨51, _⟩ => ⟨S50000x1, .f32⟩
  | .hbm, ⟨52, _⟩ => ⟨S50000x1, .f32⟩
  | .hbm, ⟨53, _⟩ => ⟨S50000x64, .f32⟩
  | .hbm, ⟨54, _⟩ => ⟨S50000x64, .f32⟩
  | .hbm, ⟨55, _⟩ => ⟨S50000x64, .f32⟩
  | .hbm, ⟨56, _⟩ => ⟨S_, .f32⟩
  | .hbm, ⟨57, _⟩ => ⟨S50000, .f32⟩
  | .hbm, ⟨58, _⟩ => ⟨S50000x1, .f32⟩
  | .hbm, ⟨59, _⟩ => ⟨S_, .f32⟩
  | .hbm, ⟨60, _⟩ => ⟨S50000x1, .f32⟩
  | .hbm, ⟨61, _⟩ => ⟨S50000x1, .f32⟩
  | .hbm, ⟨62, _⟩ => ⟨S50000x64, .f32⟩
  | .hbm, ⟨63, _⟩ => ⟨S50000x64, .f32⟩
  | .hbm, ⟨64, _⟩ => ⟨S_, .f32⟩
  | .hbm, ⟨65, _⟩ => ⟨S50000x1, .f32⟩
  | .hbm, ⟨66, _⟩ => ⟨S50000x1, .f32⟩
  | .hbm, ⟨67, _⟩ => ⟨S50000x1, .f32⟩
  | .hbm, ⟨68, _⟩ => ⟨S50000x64, .f32⟩
  | .hbm, ⟨69, _⟩ => ⟨S50000x64, .f32⟩
  | .hbm, ⟨70, _⟩ => ⟨S1x64, .f32⟩
  | .hbm, ⟨71, _⟩ => ⟨S50000x64, .f32⟩
  | .hbm, ⟨72, _⟩ => ⟨S50000x64, .f32⟩
  | .hbm, ⟨73, _⟩ => ⟨S1x64, .f32⟩
  | .hbm, ⟨74, _⟩ => ⟨S50000x64, .f32⟩
  | .hbm, ⟨75, _⟩ => ⟨S50000x64, .f32⟩
  | .hbm, ⟨76, _⟩ => ⟨S50000x64, .f32⟩
  | .hbm, ⟨77, _⟩ => ⟨S1x64, .f32⟩
  | .hbm, ⟨78, _⟩ => ⟨S50000x64, .f32⟩
  | .hbm, ⟨79, _⟩ => ⟨S50000x64, .f32⟩
  | .hbm, ⟨80, _⟩ => ⟨S50000x64, .f32⟩
  | .hbm, ⟨81, _⟩ => ⟨S_, .f32⟩
  | .hbm, ⟨82, _⟩ => ⟨S50000, .f32⟩
  | .hbm, ⟨83, _⟩ => ⟨S50000x1, .f32⟩
  | .hbm, ⟨84, _⟩ => ⟨S_, .f32⟩
  | .hbm, ⟨85, _⟩ => ⟨S50000x1, .f32⟩
  | .hbm, ⟨86, _⟩ => ⟨S50000x1, .f32⟩
  | .hbm, ⟨87, _⟩ => ⟨S50000x64, .f32⟩
  | .hbm, ⟨88, _⟩ => ⟨S50000x64, .f32⟩
  | .hbm, ⟨89, _⟩ => ⟨S50000x64, .f32⟩
  | .hbm, ⟨90, _⟩ => ⟨S_, .f32⟩
  | .hbm, ⟨91, _⟩ => ⟨S50000, .f32⟩
  | .hbm, ⟨92, _⟩ => ⟨S50000x1, .f32⟩
  | .hbm, ⟨93, _⟩ => ⟨S_, .f32⟩
  | .hbm, ⟨94, _⟩ => ⟨S50000x1, .f32⟩
  | .hbm, ⟨95, _⟩ => ⟨S50000x1, .f32⟩
  | .hbm, ⟨96, _⟩ => ⟨S50000x64, .f32⟩
  | .hbm, ⟨97, _⟩ => ⟨S50000x64, .f32⟩
  | .hbm, ⟨98, _⟩ => ⟨S_, .f32⟩
  | .hbm, ⟨99, _⟩ => ⟨S50000x1, .f32⟩
  | .hbm, ⟨100, _⟩ => ⟨S50000x1, .f32⟩
  | .hbm, ⟨101, _⟩ => ⟨S50000x1, .f32⟩
  | .hbm, ⟨102, _⟩ => ⟨S50000x64, .f32⟩
  | .hbm, ⟨103, _⟩ => ⟨S50000x64, .f32⟩
  | .hbm, ⟨104, _⟩ => ⟨S1x64, .f32⟩
  | .hbm, ⟨105, _⟩ => ⟨S50000x64, .f32⟩
  | .hbm, ⟨106, _⟩ => ⟨S50000x64, .f32⟩
  | .hbm, ⟨107, _⟩ => ⟨S1x64, .f32⟩
  | .hbm, ⟨108, _⟩ => ⟨S50000x64, .f32⟩
  | .hbm, ⟨109, _⟩ => ⟨S50000x64, .f32⟩
  | .hbm, ⟨110, _⟩ => ⟨S50000x128, .f32⟩
  | .hbm, ⟨111, _⟩ => ⟨S128x64, .f32⟩
  | .hbm, ⟨112, _⟩ => ⟨S50000x64, .f32⟩
  | .hbm, ⟨113, _⟩ => ⟨S_, .f32⟩
  | .hbm, ⟨114, _⟩ => ⟨S50000x64, .f32⟩
  | .hbm, ⟨115, _⟩ => ⟨S50000x64, .f32⟩
  | .hbm, ⟨116, _⟩ => ⟨S64x64, .f32⟩
  | .hbm, ⟨117, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call0_cst : Ref sig .tc := ⟨.hbm, 26, rfl⟩
abbrev main_call0_v0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_9 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_11 : Ref sig .tc := ⟨.hbm, 90, rfl⟩
abbrev main_v64 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_13 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_call1_cst : Ref sig .tc := ⟨.hbm, 113, rfl⟩
abbrev main_call1_v0 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  transposes_S64x64_S64x64_1_0 : S64x64.Transposes [1, 0] S64x64
  bcast_S_S800000x64 : S_.BroadcastsInDim S800000x64 (![] : Fin 0 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  reducesTo_S50000x64_S50000_d1 : S50000x64.ReducesTo [1] S50000
  h_S_ : 0 < S_.numel
  bcast_S_S50000x1 : S_.BroadcastsInDim S50000x1 (![] : Fin 0 → Fin S50000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S50000x64_S50000x64_S50000x128_d1 : Shape.Concatenates [S50000x64, S50000x64] S50000x128 1
  transposes_S64x128_S128x64_1_0 : S64x128.Transposes [1, 0] S128x64
  gather_S50000x64_S800000x1_S800000x64_1_0_n_n_0_1_164_wf : GatherDims.WF S50000x64 S800000x1 S800000x64 [1] [0] [] [0] [] 1 ![1, 64]
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The program's run with its result named. The run is the two regions among the two stretches of host operations; its last
  thread state holds every buffer at the last boundary's contents, so the final state has the result array at those contents
  and the arguments as launched. The last boundary's contents of the result buffer are the second region's output array.
-/
import proofs.«131608_j86045374808683_2_alg».proof.Proof.Gen.KernelIdeal.Frame

set_option maxRecDepth 16384

noncomputable section

namespace Cert.KernelIdeal.RunNamed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable [Facts]
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result array at the last boundary's contents of its buffer (the fold
    of the two regions and the two host stretches from the launch memory), the argument arrays as launched. -/
theorem run_named : θ_run defs (onTc (τ := τ) (main (F := F))) ⟨m, fun _ => 0, ρ⟩ (fun r => ∀ c : Dev nD,
      r.2.mem ((c.tc : Thread nD τ).loc main_v29) = W4 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v29 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.RunNamed

end
-- ==== Proof.Spec.lean ====
/-
  The function both programs compute, row by row, on the extended reals.

  Every node `n` of the graph gets: the mean over its incoming edges of a two-layer ReLU perceptron applied to the
  edge's source row (`aggregate`: the segment sum of the perceptron's rows over the edges whose destination is `n`,
  divided by the larger of the edge count and one); the LayerNorm of that mean; the LayerNorm of the node's own row pushed
  away from it (`x + (x - ln₁) · w`); and a second two-layer ReLU perceptron on the two normalised rows side by side.
  Nothing here is an array operation: a row is a function `Fin 64 → EReal`, a weight matrix is read at `ix2 j k`.
-/
import Idealize.ShloMosaic.Lib.ValueIdx
import Idealize.ShloMosaic.PureOps.Ideal.Laws

noncomputable section

namespace Cert.Spec

open Idealize.ShloMosaic Idealize.ShloMosaic.ValueIdx

/-- The float constants the two programs share, as their binary words denote them. -/
abbrev ZERO : EReal := Ideal.ofBits .f32 0x00000000#32
abbrev ONE : EReal := Ideal.ofBits .f32 0x3F800000#32
abbrev C64 : EReal := Ideal.ofBits .f32 0x42800000#32
abbrev EPS : EReal := Ideal.ofBits .f32 0x3727C5AC#32

/-- Two bias-free linear layers with a ReLU between, on one row: `A` is `[K, H]`, `B` is `[H, N]`. -/
def mlpRow {K H N : ℕ} (xr : Fin K → EReal) (A : (⟨2, ![K, H]⟩ : Shape).Idx → EReal)
    (B : (⟨2, ![H, N]⟩ : Shape).Idx → EReal) (c : Fin N) : EReal :=
  ∑ k : Fin H, max (∑ j : Fin K, xr j * A (ix2 j k)) ZERO * B (ix2 k c)

/-- `mlpRow` depends on its row, its weights and its feature only through their values. -/
theorem mlpRow_congr {K H N : ℕ} {f f' : Fin K → EReal} {A A' : (⟨2, ![K, H]⟩ : Shape).Idx → EReal}
    {B B' : (⟨2, ![H, N]⟩ : Shape).Idx → EReal} {q q' : Fin N} (hf : ∀ j, f j = f' j) (hA : A = A') (hB : B = B') (hq : q = q') :
    mlpRow f A B q = mlpRow f' A' B' q' := by
  subst hA hB hq
  rw [show f = f' from funext hf]

/-- The perceptron applied to every row of a matrix. -/
def mlpArr {R K H N : ℕ} (X : (⟨2, ![R, K]⟩ : Shape).Idx → EReal) (A : (⟨2, ![K, H]⟩ : Shape).Idx → EReal)
    (B : (⟨2, ![H, N]⟩ : Shape).Idx → EReal) : (⟨2, ![R, N]⟩ : Shape).Idx → EReal :=
  fun i => mlpRow (fun j => X (ix2 (i 0) j)) A B (i 1)

/-- A row's mean over its 64 entries. -/
def mean64 (v : Fin 64 → EReal) : EReal := Ideal.div (∑ k : Fin 64, v k) C64

/-- A row centred and scaled to unit (biased) variance. -/
def lnCore (v : Fin 64 → EReal) (q : Fin 64) : EReal :=
  (v q - mean64 v) * Ideal.rsqrt (Ideal.div (∑ k : Fin 64, (v k - mean64 v) * (v k - mean64 v)) C64 + EPS)

/-- LayerNorm of a row with gain `g` and bias `b`. -/
def lnRow (v g b : Fin 64 → EReal) (q : Fin 64) : EReal := lnCore v q * g q + b q

/-- Two rows of 64 side by side. -/
def cat (a b : Fin 64 → EReal) (k : Fin 128) : EReal :=
  if h : k.val < 64 then a ⟨k.val, h⟩ else b ⟨k.val - 64, by omega⟩

/-- The mean of the incoming messages: the summed messages over the larger of the count and one. -/
def aggRow (sr : Fin 64 → EReal) (cnt : EReal) (q : Fin 64) : EReal := Ideal.div (sr q) (max cnt ONE)

/-- The node's row pushed away from its normalised aggregate. -/
def repelRow (xr l1 w : Fin 64 → EReal) (q : Fin 64) : EReal := xr q + (xr q - l1 q) * w q

/-- What one node ends with, from its own row, its summed messages and its message count. -/
def nodeRow (xr sr : Fin 64 → EReal) (cnt : EReal) (g1 b1 w g2 b2 : Fin 64 → EReal)
    (A : (⟨2, ![128, 64]⟩ : Shape).Idx → EReal) (B : (⟨2, ![64, 64]⟩ : Shape).Idx → EReal) (c : Fin 64) : EReal :=
  mlpRow (cat (lnRow (repelRow xr (lnRow (aggRow sr cnt) g1 b1) w) g2 b2) (lnRow (aggRow sr cnt) g1 b1)) A B c

/-- `nodeRow` depends on its rows, gains, biases and weights only through their values. -/
theorem nodeRow_congr {xr xr' sr sr' : Fin 64 → EReal} {cnt cnt' : EReal} {g1 g1' b1 b1' w w' g2 g2' b2 b2' : Fin 64 → EReal}
    {A A' : (⟨2, ![128, 64]⟩ : Shape).Idx → EReal} {B B' : (⟨2, ![64, 64]⟩ : Shape).Idx → EReal} {c c' : Fin 64}
    (hx : ∀ q, xr q = xr' q) (hs : ∀ q, sr q = sr' q) (hc : cnt = cnt') (hg1 : ∀ q, g1 q = g1' q) (hb1 : ∀ q, b1 q = b1' q)
    (hw : ∀ q, w q = w' q) (hg2 : ∀ q, g2 q = g2' q) (hb2 : ∀ q, b2 q = b2' q) (hA : A = A') (hB : B = B') (hcc : c = c') :
    nodeRow xr sr cnt g1 b1 w g2 b2 A B c = nodeRow xr' sr' cnt' g1' b1' w' g2' b2' A' B' c' := by
  obtain rfl : xr = xr' := funext hx
  obtain rfl : sr = sr' := funext hs
  obtain rfl : g1 = g1' := funext hg1
  obtain rfl : b1 = b1' := funext hb1
  obtain rfl : w = w' := funext hw
  obtain rfl : g2 = g2' := funext hg2
  obtain rfl : b2 = b2' := funext hb2
  subst hc hA hB hcc
  rfl

/-- The sum, from `ZERO`, of `f` over the edges whose destination is `n`. -/
def segSum {E N : ℕ} (dst : Fin E → Option (Fin N)) (f : Fin E → EReal) (n : Fin N) : EReal :=
  ZERO + ∑ e ∈ Finset.univ.filter (fun e => dst e = some n), f e

/-- The whole result: node `i 0`, output feature `i 1`. `src` is each edge's source row, `dst` its destination (if any). -/
def result {E : ℕ} (X : (⟨2, ![50000, 64]⟩ : Shape).Idx → EReal) (src : Fin E → Fin 50000) (dst : Fin E → Option (Fin 50000))
    (A1 B1 : (⟨2, ![64, 64]⟩ : Shape).Idx → EReal) (g1 b1 w g2 b2 : Fin 64 → EReal)
    (A2 : (⟨2, ![128, 64]⟩ : Shape).Idx → EReal) (B2 : (⟨2, ![64, 64]⟩ : Shape).Idx → EReal) :
    (⟨2, ![50000, 64]⟩ : Shape).Idx → EReal := fun i =>
  nodeRow (fun q => X (ix2 (i 0) q))
    (fun q => segSum dst (fun e => mlpRow (fun j => X (ix2 (src e) j)) A1 B1 q) (i 0))
    (segSum dst (fun _ => ONE) (i 0)) g1 b1 w g2 b2 A2 B2 (i 1)

end Cert.Spec

end
-- ==== Proof.LibLane.lean ====
/-
  A sum along the last axis of a matrix, read at a row: the lane reduction of an `[R, C]` vector into `[R]`, from the zero
  accumulator, is at row `r` the sum over the `C` columns of the entries of that row — generic in the extents.
-/
import Idealize.ShloMosaic.Lib.ValueIdx
import Idealize.ShloMosaic.PureOps.Ideal.Laws

noncomputable section

namespace Cert.Lib.Lane

open Idealize.ShloMosaic Idealize.ShloMosaic.ValueIdx

/-- The reduced index `r` with column `k` put back is `(r, k)`. -/
theorem lift_row {R C : ℕ} (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- A float lane sum from the zero accumulator, at row `r`: the sum of that row's entries. -/
theorem laneSum_apply {R C : ℕ} (src : FVec Ideal ⟨2, ![R, C]⟩ .f32)
    (h : (⟨2, ![R, C]⟩ : Shape).Reduces [1] (⟨1, ![R]⟩ : Shape)) (hφ : FKind.Formats .f32)
    (hacc : (0x00000000#32 : BitVec 32) = 0x00000000#32) (r : Fin R) :
    multiReduction .add [1] (⟨1, ![R]⟩ : Shape) src 0x00000000#32 h hφ hacc (ix1 r) = ∑ k : Fin C, src (ix2 r k) := by
  refine (Ideal.multiReduction_add_single src 0x00000000#32 h hφ hacc (ix1 r)).trans ?_
  exact Finset.sum_congr rfl fun k _ => congrArg src (lift_row h r k)

end Cert.Lib.Lane

end
-- ==== Proof.LibKeepdims.lean ====
/-
  Vectors re-laid around unit axes, read at an index, generic in the extents: a vector as a column ([a] as [a, 1]),
  a column repeated along its unit axis ([a, 1] as [a, b]), a vector under two leading unit axes and back
  ([a] as [1, 1, a]; [1, 1, a] as [a]), and a stack of single-row blocks flattened row-major ([g, 1, c] as [a, b]).
-/
import Idealize.ShloMosaic.Lib.Pipeline.Value
import Idealize.ShloMosaic.Lib.ValueIdx

namespace Cert.Layout

open Idealize.ShloMosaic Idealize.ShloMosaic.ValueIdx

variable {α : Type}

/-- An `[a]` vector cast to the column `[a, 1]` reads, at `(i, u)`, the operand at `i`. -/
theorem cast_col {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated to `[a, b]` reads, at `(i, j)`, the column at `(i, 0)`. -/
theorem bcast_col {a b : ℕ} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a]` vector under two leading unit axes reads, at `(u, u', i)`, the operand at `i`. -/
theorem cast_lead2 {a : ℕ} (x : (⟨1, ![a]⟩ : Shape).Idx → α) (h : (⟨1, ![a]⟩ : Shape).ShapeCasts ⟨3, ![1, 1, a]⟩)
    (u u' : Fin 1) (i : Fin a) : shapeCast ⟨3, ![1, 1, a]⟩ x h (ix3 u u' i) = x (ix1 i) :=
  shapeCast_apply x h _ _ (by
    have hu : u.val = 0 := by omega
    have hu' : u'.val = 0 := by omega
    rw [Shape.rowMajor_val_three, Shape.rowMajor_val_one]
    show i.val = (u.val * 1 + u'.val) * a + i.val
    rw [hu, hu']; omega)

/-- A `[1, 1, a]` vector with its unit axes dropped reads, at `i`, the operand at `(0, 0, i)`. -/
theorem cast_drop2 {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- A stack `[g, 1, c]` of single-row blocks flattened row-major to `[a, b]`: entry `(r, s)` is entry `(t, 0, p)` of
    the stack whenever `r·b + s = t·c + p`. -/
theorem cast_stack {g c a b : ℕ} (x : (⟨3, ![g, 1, c]⟩ : Shape).Idx → α) (h : (⟨3, ![g, 1, c]⟩ : Shape).ShapeCasts ⟨2, ![a, b]⟩)
    (r : Fin a) (s : Fin b) (t : Fin g) (p : Fin c) (hrs : r.val * b + s.val = t.val * c + p.val) :
    shapeCast ⟨2, ![a, b]⟩ x h (ix2 r s) = x (ix3 t (0 : Fin 1) p) :=
  shapeCast_apply x h _ _ (by
    rw [Shape.rowMajor_val_three, Shape.rowMajor_val_two]
    show (t.val * 1 + 0) * c + p.val = r.val * b + s.val
    rw [Nat.mul_one, Nat.add_zero, hrs])

end Cert.Layout
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.LibCols.lean ====
/-
  Matrices cut and joined along their columns, and a column laid out as a row, read at an index; generic in the
  extents.

  Columns o … o + N' − 1 cut out of a matrix [R, N] read, at (r, j), the matrix at (r, o + j). Two or three
  matrices with the same row count joined side by side read, at (k, c), the piece that column c falls in, at that
  piece's own column. A column [C, 1] reshaped to the row [1, C] reads, at (0, c), the column at (c, 0) (the data
  order is the same, the unit axis moved).
-/
import Idealize.ShloMosaic.Lib.ValueIdx
import Idealize.ShloMosaic.Lib.Pipeline.Value

noncomputable section

namespace Cert.Lib.Cols

open Idealize.ShloMosaic Idealize.ShloMosaic.ValueIdx

variable {α : Type}

/-- Columns o … o + N' − 1 of a matrix [R, N], read at (r, j), are the matrix at (r, o + j). -/
theorem slice_cols_apply {R N N' o : Nat} (x : (⟨2, ![R, N]⟩ : Shape).Idx → α)
    (h : (⟨2, ![R, N]⟩ : Shape).Slices ![0, o] ⟨2, ![R, N']⟩) (r : Fin R) (j : Fin N') (hj : o + j.val < N) :
    extractStridedSlice ⟨2, ![R, N']⟩ ![0, o] x h (ix2 r j) = x (ix2 r ⟨o + j.val, hj⟩) :=
  extractStridedSlice_apply ![0, o] x h (ix2 r j) (ix2 r ⟨o + j.val, hj⟩) (fun a => by
    match a with
    | ⟨0, _⟩ => show r.val = 0 + r.val; omega
    | ⟨1, _⟩ => rfl)

/-- A column [C, 1] reshaped to the row [1, C], read at (0, c), is the column at (c, 0). -/
theorem shapeCast_col_row_apply {C : Nat} (x : (⟨2, ![C, 1]⟩ : Shape).Idx → α)
    (h : (⟨2, ![C, 1]⟩ : Shape).ShapeCasts ⟨2, ![1, C]⟩) (c : Fin C) :
    shapeCast ⟨2, ![1, C]⟩ x h (ix2 0 c) = x (ix2 c 0) :=
  shapeCast_apply x h (ix2 0 c) (ix2 c 0) (by
    rw [Shape.rowMajor_val_two, Shape.rowMajor_val_two]
    show c.val * 1 + (0 : Nat) = (0 : Nat) * C + c.val
    omega)

/-- Two matrices [K, N₁], [K, N₂] joined along their columns, read at a column of the FIRST. -/
theorem concat2_cols_fst {K N₁ N₂ N : Nat} (a : (⟨2, ![K, N₁]⟩ : Shape).Idx → α) (b : (⟨2, ![K, N₂]⟩ : Shape).Idx → α)
    (h : Shape.Concatenates [(⟨2, ![K, N₁]⟩ : Shape), ⟨2, ![K, N₂]⟩] ⟨2, ![K, N]⟩ 1)
    (k : Fin K) (j : Fin N₁) (hj : j.val < N) :
    concatenate ⟨2, ![K, N]⟩ 1 [⟨⟨2, ![K, N₁]⟩, a⟩, ⟨⟨2, ![K, N₂]⟩, b⟩] h (ix2 k ⟨j.val, hj⟩) = a (ix2 k j) :=
  concatenate_pair_apply_left 1 a b h (ix2 k ⟨j.val, hj⟩) rfl (ix2 k j) (fun ax => by
    match ax with
    | ⟨0, _⟩ => rfl
    | ⟨1, _⟩ => rfl)

/-- Two matrices [K, N₁], [K, N₂] joined along their columns, read at a column of the SECOND. -/
theorem concat2_cols_snd {K N₁ N₂ N : Nat} (a : (⟨2, ![K, N₁]⟩ : Shape).Idx → α) (b : (⟨2, ![K, N₂]⟩ : Shape).Idx → α)
    (h : Shape.Concatenates [(⟨2, ![K, N₁]⟩ : Shape), ⟨2, ![K, N₂]⟩] ⟨2, ![K, N]⟩ 1)
    (k : Fin K) (j : Fin N₂) (hj : N₁ + j.val < N) :
    concatenate ⟨2, ![K, N]⟩ 1 [⟨⟨2, ![K, N₁]⟩, a⟩, ⟨⟨2, ![K, N₂]⟩, b⟩] h (ix2 k ⟨N₁ + j.val, hj⟩) = b (ix2 k j) :=
  concatenate_pair_apply_right 1 a b h (ix2 k ⟨N₁ + j.val, hj⟩) rfl rfl (ix2 k j) (fun ax hax => by
    match ax with
    | ⟨0, _⟩ => rfl
    | ⟨1, _⟩ => exact absurd rfl hax) (by show j.val + N₁ = N₁ + j.val; omega)

/-- Three matrices [K, N₁], [K, N₂], [K, N₃] joined along their columns, read at a column of the FIRST. -/
theorem concat3_cols_fst {K N₁ N₂ N₃ N : Nat} (a : (⟨2, ![K, N₁]⟩ : Shape).Idx → α) (b : (⟨2, ![K, N₂]⟩ : Shape).Idx → α)
    (c : (⟨2, ![K, N₃]⟩ : Shape).Idx → α)
    (h : Shape.Concatenates [(⟨2, ![K, N₁]⟩ : Shape), ⟨2, ![K, N₂]⟩, ⟨2, ![K, N₃]⟩] ⟨2, ![K, N]⟩ 1)
    (k : Fin K) (j : Fin N₁) (hj : j.val < N) :
    concatenate ⟨2, ![K, N]⟩ 1 [⟨⟨2, ![K, N₁]⟩, a⟩, ⟨⟨2, ![K, N₂]⟩, b⟩, ⟨⟨2, ![K, N₃]⟩, c⟩] h (ix2 k ⟨j.val, hj⟩) = a (ix2 k j) :=
  concatenate_apply_piece 1 [⟨⟨2, ![K, N₁]⟩, a⟩, ⟨⟨2, ![K, N₂]⟩, b⟩, ⟨⟨2, ![K, N₃]⟩, c⟩] h (ix2 k ⟨j.val, hj⟩)
    0 (by simp) ⟨2, ![K, N₁]⟩ a rfl rfl 0 rfl (ix2 k j) (fun ax hax => by
      match ax with
      | ⟨0, _⟩ => rfl
      | ⟨1, _⟩ => exact absurd rfl hax) (by show 0 + j.val = j.val; omega)

/-- … at a column of the SECOND. -/
theorem concat3_cols_snd {K N₁ N₂ N₃ N : Nat} (a : (⟨2, ![K, N₁]⟩ : Shape).Idx → α) (b : (⟨2, ![K, N₂]⟩ : Shape).Idx → α)
    (c : (⟨2, ![K, N₃]⟩ : Shape).Idx → α)
    (h : Shape.Concatenates [(⟨2, ![K, N₁]⟩ : Shape), ⟨2, ![K, N₂]⟩, ⟨2, ![K, N₃]⟩] ⟨2, ![K, N]⟩ 1)
    (k : Fin K) (j : Fin N₂) (hj : N₁ + j.val < N) :
    concatenate ⟨2, ![K, N]⟩ 1 [⟨⟨2, ![K, N₁]⟩, a⟩, ⟨⟨2, ![K, N₂]⟩, b⟩, ⟨⟨2, ![K, N₃]⟩, c⟩] h (ix2 k ⟨N₁ + j.val, hj⟩) = b (ix2 k j) :=
  concatenate_apply_piece 1 [⟨⟨2, ![K, N₁]⟩, a⟩, ⟨⟨2, ![K, N₂]⟩, b⟩, ⟨⟨2, ![K, N₃]⟩, c⟩] h (ix2 k ⟨N₁ + j.val, hj⟩)
    1 (by simp) ⟨2, ![K, N₂]⟩ b rfl rfl N₁ (by simp) (ix2 k j) (fun ax hax => by
      match ax with
      | ⟨0, _⟩ => rfl
      | ⟨1, _⟩ => exact absurd rfl hax) rfl

/-- … at a column of the THIRD. -/
theorem concat3_cols_thd {K N₁ N₂ N₃ N : Nat} (a : (⟨2, ![K, N₁]⟩ : Shape).Idx → α) (b : (⟨2, ![K, N₂]⟩ : Shape).Idx → α)
    (c : (⟨2, ![K, N₃]⟩ : Shape).Idx → α)
    (h : Shape.Concatenates [(⟨2, ![K, N₁]⟩ : Shape), ⟨2, ![K, N₂]⟩, ⟨2, ![K, N₃]⟩] ⟨2, ![K, N]⟩ 1)
    (k : Fin K) (j : Fin N₃) (hj : N₁ + N₂ + j.val < N) :
    concatenate ⟨2, ![K, N]⟩ 1 [⟨⟨2, ![K, N₁]⟩, a⟩, ⟨⟨2, ![K, N₂]⟩, b⟩, ⟨⟨2, ![K, N₃]⟩, c⟩] h (ix2 k ⟨N₁ + N₂ + j.val, hj⟩) = c (ix2 k j) :=
  concatenate_apply_piece 1 [⟨⟨2, ![K, N₁]⟩, a⟩, ⟨⟨2, ![K, N₂]⟩, b⟩, ⟨⟨2, ![K, N₃]⟩, c⟩] h (ix2 k ⟨N₁ + N₂ + j.val, hj⟩)
    2 (by simp) ⟨2, ![K, N₃]⟩ c rfl rfl (N₁ + N₂) (by simp) (ix2 k j) (fun ax hax => by
      match ax with
      | ⟨0, _⟩ => rfl
      | ⟨1, _⟩ => exact absurd rfl hax) rfl

end Cert.Lib.Cols

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«131608_j86045374808683_2_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.RowOps.lean ====
/-
  The two row-wise building blocks of both programs, each read at an index once and for all.

  A LayerNorm core (centre a row by its mean, scale by the reciprocal square root of its biased variance plus a constant) and
  a two-layer ReLU perceptron are written by the kernel as vector operations on a block of rows (lane sums, keepdims
  columns, broadcasts) and by the reference as host operations on the whole matrix (a row sum from an initial value,
  `broadcast_in_dim`s). Read at `(p, q)`, each form depends on row `p` alone and is the row function of the specification:
  `lnCore` of that row, `mlpRow` of that row. The statements are generic in the number of rows.
-/
import proofs.«131608_j86045374808683_2_alg».proof.Proof.Spec
import proofs.«131608_j86045374808683_2_alg».proof.Proof.LibLane
import proofs.«131608_j86045374808683_2_alg».proof.Proof.LibKeepdims
import proofs.«131608_j86045374808683_2_alg».proof.Proof.LibRows
import proofs.«131608_j86045374808683_2_alg».proof.Proof.LibCols
import proofs.«131608_j86045374808683_2_alg».proof.Proof.LibPlainDot
import proofs.«131608_j86045374808683_2_alg».proof.Proof.LibRowBlocks
import Idealize.ShloMosaic.Lib.Pipeline.Value

noncomputable section

namespace Cert.RowOps

open Idealize.ShloMosaic Idealize.ShloMosaic.ValueIdx Cert.Spec Cert.Lib.PlainDot Cert.Lib.RowBlocks

variable {α : Type}

/-! ## `broadcast_in_dim` of the small shapes, read at an index -/

/-- A vector `[R]` as the column `[R, 1]`. -/
theorem inDim_col {R : ℕ} (x : (⟨1, ![R]⟩ : Shape).Idx → α) (h : (⟨1, ![R]⟩ : Shape).BroadcastsInDim ⟨2, ![R, 1]⟩ ![0])
    (p : Fin R) (u : Fin 1) : broadcastInDim ⟨2, ![R, 1]⟩ ![0] h x (ix2 p u) = x (ix1 p) :=
  broadcastInDim_apply _ h x (ix2 p u) (ix1 p) (fun a => match a with
    | ⟨0, _⟩ => by
      show p.val = if R = 1 then 0 else p.val
      split
      · have := p.isLt; omega
      · rfl)

/-- A column `[R, 1]` repeated along the rows to `[R, C]`. -/
theorem inDim_cols {R C : ℕ} (x : (⟨2, ![R, 1]⟩ : Shape).Idx → α)
    (h : (⟨2, ![R, 1]⟩ : Shape).BroadcastsInDim ⟨2, ![R, C]⟩ ![0, 1]) (p : Fin R) (q : Fin C) :
    broadcastInDim ⟨2, ![R, C]⟩ ![0, 1] h x (ix2 p q) = x (ix2 p (0 : Fin 1)) :=
  broadcastInDim_apply _ h x (ix2 p q) (ix2 p (0 : Fin 1)) (fun a => match a with
    | ⟨0, _⟩ => by
      show p.val = if R = 1 then 0 else p.val
      split
      · have := p.isLt; omega
      · rfl
    | ⟨1, _⟩ => by
      show (0 : ℕ) = if (1 : ℕ) = 1 then 0 else q.val
      rw [if_pos rfl])

/-- A scalar splat to any shape. -/
theorem inDim_scalar {t : Shape} (x : (⟨0, ![]⟩ : Shape).Idx → α) (h : (⟨0, ![]⟩ : Shape).BroadcastsInDim t ![]) (i : t.Idx) :
    broadcastInDim t ![] h x i = x ix0 :=
  broadcastInDim_apply _ h x i ix0 (fun a => a.elim0)

/-- A vector `[C]` as the row `[1, C]`. -/
theorem inDim_rowvec {C : ℕ} (x : (⟨1, ![C]⟩ : Shape).Idx → α) (h : (⟨1, ![C]⟩ : Shape).BroadcastsInDim ⟨2, ![1, C]⟩ ![1])
    (u : Fin 1) (q : Fin C) : broadcastInDim ⟨2, ![1, C]⟩ ![1] h x (ix2 u q) = x (ix1 q) :=
  broadcastInDim_apply _ h x (ix2 u q) (ix1 q) (fun a => match a with
    | ⟨0, _⟩ => by
      show q.val = if C = 1 then 0 else q.val
      split
      · have := q.isLt; omega
      · rfl)

/-- A row `[1, C]` repeated down the rows to `[R, C]`. -/
theorem inDim_rows {R C : ℕ} (x : (⟨2, ![1, C]⟩ : Shape).Idx → α)
    (h : (⟨2, ![1, C]⟩ : Shape).BroadcastsInDim ⟨2, ![R, C]⟩ ![0, 1]) (p : Fin R) (q : Fin C) :
    broadcastInDim ⟨2, ![R, C]⟩ ![0, 1] h x (ix2 p q) = x (ix2 (0 : Fin 1) q) :=
  broadcastInDim_apply _ h x (ix2 p q) (ix2 (0 : Fin 1) q) (fun a => match a with
    | ⟨0, _⟩ => by
      show (0 : ℕ) = if (1 : ℕ) = 1 then 0 else p.val
      rw [if_pos rfl]
    | ⟨1, _⟩ => by
      show q.val = if C = 1 then 0 else q.val
      split
      · have := q.isLt; omega
      · rfl)

/-- The host's float sum along the last axis, at row `p`: the initial value plus the sum of that row's entries. -/
theorem hostRowSum {R C : ℕ} (x : FVec Ideal ⟨2, ![R, C]⟩ .f32) (init : (⟨0, ![]⟩ : Shape).Idx → Ideal .f32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (p : Fin R) :
    Host.reduceAdd x init h' hu (ix1 p) = init (Shape.Idx.first hu) + ∑ k : Fin C, x (ix2 p k) := by
  show Ideal.hostReduceAdd h' x (init (Shape.Idx.first hu)) (ix1 p) = _
  rw [Ideal.hostReduceAdd_single h' h]
  exact congrArg (_ + ·) (Finset.sum_congr rfl fun k _ => congrArg x (Cert.Lib.Lane.lift_row h p k))

/-! ## Two blocks of 64 columns side by side -/

theorem cat_congr {a a' b b' : Fin 64 → EReal} (ha : ∀ k, a k = a' k) (hb : ∀ k, b k = b' k) (j : Fin 128) :
    cat a b j = cat a' b' j := by
  rw [show a = a' from funext ha, show b = b' from funext hb]

/-- Two `[R, 64]` matrices joined along the columns, read at `(p, j)`: row `p` of the first then row `p` of the second. -/
theorem concat_cat {R : ℕ} (a b : (⟨2, ![R, 64]⟩ : Shape).Idx → EReal)
    (h : Shape.Concatenates [(⟨2, ![R, 64]⟩ : Shape), ⟨2, ![R, 64]⟩] ⟨2, ![R, 128]⟩ 1) (p : Fin R) (j : Fin 128) :
    concatenate ⟨2, ![R, 128]⟩ 1 [⟨⟨2, ![R, 64]⟩, a⟩, ⟨⟨2, ![R, 64]⟩, b⟩] h (ix2 p j)
      = cat (fun k => a (ix2 p k)) (fun k => b (ix2 p k)) j := by
  unfold cat
  split
  · rename_i hj
    exact Cert.Lib.Cols.concat2_cols_fst a b h p ⟨j.val, hj⟩ j.isLt
  · rename_i hj
    have hlt : 64 + (j.val - 64) < 128 := by have := j.isLt; omega
    have e : j = ⟨64 + (j.val - 64), hlt⟩ := Fin.ext (by show j.val = 64 + (j.val - 64); omega)
    have := Cert.Lib.Cols.concat2_cols_snd a b h p ⟨j.val - 64, by have := j.isLt; omega⟩ hlt
    rw [← e] at this
    exact this

/-! ## The LayerNorm core -/

/-- The kernel's form on a block of `R` rows: lane sums, keepdims columns, lane broadcasts. -/
theorem lnCore_vec {R : ℕ} (v : FVec Ideal ⟨2, ![R, 64]⟩ .f32)
    (h : (⟨2, ![R, 64]⟩ : Shape).Reduces [1] (⟨1, ![R]⟩ : Shape)) (hφ : FKind.Formats .f32)
    (hacc : (0x00000000#32 : BitVec 32) = 0x00000000#32)
    (hc : (⟨1, ![R]⟩ : Shape).ShapeCasts ⟨2, ![R, 1]⟩) (hb : (⟨2, ![R, 1]⟩ : Shape).Broadcasts ⟨2, ![R, 64]⟩)
    (p : Fin R) (q : Fin 64) :
    mulf (subf v (broadcastTo ⟨2, ![R, 64]⟩ (divf (shapeCast ⟨2, ![R, 1]⟩ (multiReduction .add [1] (⟨1, ![R]⟩ : Shape) v 0x00000000#32 h hφ hacc) hc)
            (broadcast ⟨2, ![R, 1]⟩ (Scalar.ofBits (F := Ideal) .f32 0x42800000#32))) hb))
      (broadcastTo ⟨2, ![R, 64]⟩ (rsqrt (addf (divf (shapeCast ⟨2, ![R, 1]⟩ (multiReduction .add [1] (⟨1, ![R]⟩ : Shape)
            (mulf (subf v (broadcastTo ⟨2, ![R, 64]⟩ (divf (shapeCast ⟨2, ![R, 1]⟩ (multiReduction .add [1] (⟨1, ![R]⟩ : Shape) v 0x00000000#32 h hφ hacc) hc)
                (broadcast ⟨2, ![R, 1]⟩ (Scalar.ofBits (F := Ideal) .f32 0x42800000#32))) hb))
              (subf v (broadcastTo ⟨2, ![R, 64]⟩ (divf (shapeCast ⟨2, ![R, 1]⟩ (multiReduction .add [1] (⟨1, ![R]⟩ : Shape) v 0x00000000#32 h hφ hacc) hc)
                (broadcast ⟨2, ![R, 1]⟩ (Scalar.ofBits (F := Ideal) .f32 0x42800000#32))) hb)))
            0x00000000#32 h hφ hacc) hc) (broadcast ⟨2, ![R, 1]⟩ (Scalar.ofBits (F := Ideal) .f32 0x42800000#32)))
          (broadcast ⟨2, ![R, 1]⟩ (Scalar.ofBits (F := Ideal) .f32 0x3727C5AC#32)))) hb) (ix2 p q)
      = lnCore (fun k => v (ix2 p k)) q := by
  have hm : ∀ k : Fin 64, (broadcastTo ⟨2, ![R, 64]⟩ (divf (shapeCast ⟨2, ![R, 1]⟩ (multiReduction .add [1] (⟨1, ![R]⟩ : Shape) v 0x00000000#32 h hφ hacc) hc)
            (broadcast ⟨2, ![R, 1]⟩ (Scalar.ofBits (F := Ideal) .f32 0x42800000#32))) hb) (ix2 p k) = mean64 (fun k => v (ix2 p k)) := fun k => by
    rw [Cert.Layout.bcast_col]
    show Ideal.div (shapeCast ⟨2, ![R, 1]⟩ (multiReduction .add [1] (⟨1, ![R]⟩ : Shape) v 0x00000000#32 h hφ hacc) hc (ix2 p (0 : Fin 1))) C64 = _
    rw [Cert.Layout.cast_col, Cert.Lib.Lane.laneSum_apply]
    rfl
  show (v (ix2 p q) - _) * (broadcastTo ⟨2, ![R, 64]⟩ _ hb (ix2 p q)) = _
  rw [hm q, Cert.Layout.bcast_col]
  show _ * Ideal.rsqrt (Ideal.div (shapeCast ⟨2, ![R, 1]⟩ _ hc (ix2 p (0 : Fin 1))) C64 + EPS) = _
  rw [Cert.Layout.cast_col, Cert.Lib.Lane.laneSum_apply]
  unfold lnCore
  refine congrArg (fun s : EReal => (v (ix2 p q) - mean64 fun k => v (ix2 p k)) * Ideal.rsqrt (Ideal.div s C64 + EPS))
    (Finset.sum_congr rfl fun k _ => ?_)
  show (v (ix2 p k) - _) * (v (ix2 p k) - _) = _
  rw [hm k]

/-- The reference's form on the whole matrix: a host row sum from the zero word, `broadcast_in_dim`s. -/
theorem lnCore_host {R : ℕ} (v : FVec Ideal ⟨2, ![R, 64]⟩ .f32)
    (h' : (⟨2, ![R, 64]⟩ : Shape).ReducesTo [1] (⟨1, ![R]⟩ : Shape)) (h : (⟨2, ![R, 64]⟩ : Shape).Reduces [1] (⟨1, ![R]⟩ : Shape))
    (hu : 0 < (⟨0, ![]⟩ : Shape).numel)
    (hc : (⟨1, ![R]⟩ : Shape).BroadcastsInDim ⟨2, ![R, 1]⟩ ![0]) (hs : (⟨0, ![]⟩ : Shape).BroadcastsInDim ⟨2, ![R, 1]⟩ ![])
    (hb : (⟨2, ![R, 1]⟩ : Shape).BroadcastsInDim ⟨2, ![R, 64]⟩ ![0, 1]) (p : Fin R) (q : Fin 64) :
    mulf (subf v (broadcastInDim ⟨2, ![R, 64]⟩ ![0, 1] hb (Host.divf (broadcastInDim ⟨2, ![R, 1]⟩ ![0] hc
              (Host.reduceAdd v (constant (F := Ideal) ⟨0, ![]⟩ .f32 0x00000000#32) h' hu))
            (broadcastInDim ⟨2, ![R, 1]⟩ ![] hs (constant (F := Ideal) ⟨0, ![]⟩ .f32 0x42800000#32)))))
      (broadcastInDim ⟨2, ![R, 64]⟩ ![0, 1] hb (Host.rsqrt (addf (Host.divf (broadcastInDim ⟨2, ![R, 1]⟩ ![0] hc
              (Host.reduceAdd (mulf
                  (subf v (broadcastInDim ⟨2, ![R, 64]⟩ ![0, 1] hb (Host.divf (broadcastInDim ⟨2, ![R, 1]⟩ ![0] hc
                      (Host.reduceAdd v (constant (F := Ideal) ⟨0, ![]⟩ .f32 0x00000000#32) h' hu))
                    (broadcastInDim ⟨2, ![R, 1]⟩ ![] hs (constant (F := Ideal) ⟨0, ![]⟩ .f32 0x42800000#32)))))
                  (subf v (broadcastInDim ⟨2, ![R, 64]⟩ ![0, 1] hb (Host.divf (broadcastInDim ⟨2, ![R, 1]⟩ ![0] hc
                      (Host.reduceAdd v (constant (F := Ideal) ⟨0, ![]⟩ .f32 0x00000000#32) h' hu))
                    (broadcastInDim ⟨2, ![R, 1]⟩ ![] hs (constant (F := Ideal) ⟨0, ![]⟩ .f32 0x42800000#32))))))
                (constant (F := Ideal) ⟨0, ![]⟩ .f32 0x00000000#32) h' hu))
            (broadcastInDim ⟨2, ![R, 1]⟩ ![] hs (constant (F := Ideal) ⟨0, ![]⟩ .f32 0x42800000#32)))
          (broadcastInDim ⟨2, ![R, 1]⟩ ![] hs (constant (F := Ideal) ⟨0, ![]⟩ .f32 0x3727C5AC#32))))) (ix2 p q)
      = lnCore (fun k => v (ix2 p k)) q := by
  have hm : ∀ k : Fin 64, (broadcastInDim ⟨2, ![R, 64]⟩ ![0, 1] hb (Host.divf (broadcastInDim ⟨2, ![R, 1]⟩ ![0] hc
              (Host.reduceAdd v (constant (F := Ideal) ⟨0, ![]⟩ .f32 0x00000000#32) h' hu))
            (broadcastInDim ⟨2, ![R, 1]⟩ ![] hs (constant (F := Ideal) ⟨0, ![]⟩ .f32 0x42800000#32)))) (ix2 p k)
        = mean64 (fun k => v (ix2 p k)) := fun k => by
    rw [inDim_cols]
    show Ideal.div (broadcastInDim (s := ⟨1, ![R]⟩) ⟨2, ![R, 1]⟩ ![0] hc _ (ix2 p (0 : Fin 1))) (broadcastInDim (s := ⟨0, ![]⟩) ⟨2, ![R, 1]⟩ ![] hs _ (ix2 p (0 : Fin 1))) = _
    rw [inDim_col, inDim_scalar, hostRowSum v _ h' h hu]
    show Ideal.div (Ideal.ofBits .f32 0x00000000#32 + _) C64 = _
    rw [Ideal.ofBits_zero_f32, zero_add]
    rfl
  show (v (ix2 p q) - _) * (broadcastInDim (s := ⟨2, ![R, 1]⟩) ⟨2, ![R, 64]⟩ ![0, 1] hb _ (ix2 p q)) = _
  rw [hm q, inDim_cols]
  show _ * Ideal.rsqrt (Ideal.div (broadcastInDim (s := ⟨1, ![R]⟩) ⟨2, ![R, 1]⟩ ![0] hc _ (ix2 p (0 : Fin 1))) (broadcastInDim (s := ⟨0, ![]⟩) ⟨2, ![R, 1]⟩ ![] hs _ (ix2 p (0 : Fin 1)))
      + broadcastInDim (s := ⟨0, ![]⟩) ⟨2, ![R, 1]⟩ ![] hs _ (ix2 p (0 : Fin 1))) = _
  rw [inDim_col, inDim_scalar, inDim_scalar, hostRowSum _ _ h' h hu]
  show _ * Ideal.rsqrt (Ideal.div (Ideal.ofBits .f32 0x00000000#32 + _) C64 + EPS) = _
  rw [Ideal.ofBits_zero_f32, zero_add]
  unfold lnCore
  refine congrArg (fun s : EReal => (v (ix2 p q) - mean64 fun k => v (ix2 p k)) * Ideal.rsqrt (Ideal.div s C64 + EPS))
    (Finset.sum_congr rfl fun k _ => ?_)
  show (v (ix2 p k) - _) * (v (ix2 p k) - _) = _
  rw [hm k]

/-! ## The two-layer ReLU perceptron -/

/-- The kernel's form: two matrix products into the zero accumulator, the maximum with a zero splat between. -/
theorem mlp_vec {M K H N : ℕ} {φ₁ φ₂ φ₃ φ₄ : FTy} (a : FVec Ideal ⟨2, ![M, K]⟩ φ₁) (A : FVec Ideal ⟨2, ![K, H]⟩ φ₂)
    (B : FVec Ideal ⟨2, ![H, N]⟩ φ₃) (hlt : φ₄.bits < FTy.f32.bits) (p : Fin M) (q : Fin N) :
    matmul (DotDims.plain M H N) none
        (truncf φ₄ (maximumf (matmul (DotDims.plain M K H) none a A (constant (F := Ideal) ⟨2, ![M, H]⟩ .f32 0x00000000#32))
          (broadcast ⟨2, ![M, H]⟩ (Scalar.ofBits (F := Ideal) .f32 0x00000000#32))) hlt)
        B (constant (F := Ideal) ⟨2, ![M, N]⟩ .f32 0x00000000#32) (ix2 p q)
      = mlpRow (fun j => (a (ix2 p j) : EReal)) (fun i => (A i : EReal)) (fun i => (B i : EReal)) q := by
  rw [matmul_plain_zero_apply]
  unfold mlpRow
  refine Finset.sum_congr rfl fun k _ => ?_
  show max (matmul (DotDims.plain M K H) none a A (constant (F := Ideal) ⟨2, ![M, H]⟩ .f32 0x00000000#32) (ix2 p k)) ZERO * B (ix2 k q) = _
  rw [matmul_plain_zero_apply]

/-- The reference's form: two `dot_general`s, the maximum with a splatted zero between. -/
theorem mlp_host {M K H N : ℕ} (a : FVec Ideal ⟨2, ![M, K]⟩ .f32) (A : FVec Ideal ⟨2, ![K, H]⟩ .f32)
    (B : FVec Ideal ⟨2, ![H, N]⟩ .f32) (hs : (⟨0, ![]⟩ : Shape).BroadcastsInDim ⟨2, ![M, H]⟩ ![]) (p : Fin M) (q : Fin N) :
    Host.dotGeneral (DotDims.plain M H N) none
        (maximumf (Host.dotGeneral (DotDims.plain M K H) none a A)
          (broadcastInDim ⟨2, ![M, H]⟩ ![] hs (constant (F := Ideal) ⟨0, ![]⟩ .f32 0x00000000#32))) B (ix2 p q)
      = mlpRow (fun j => a (ix2 p j)) A B q := by
  rw [dotGeneral_plain_apply]
  unfold mlpRow
  refine Finset.sum_congr rfl fun k _ => ?_
  show max (Host.dotGeneral (DotDims.plain M K H) none a A (ix2 p k)) (broadcastInDim (s := ⟨0, ![]⟩) ⟨2, ![M, H]⟩ ![] hs _ (ix2 p k)) * B (ix2 k q) = _
  rw [dotGeneral_plain_apply, inDim_scalar]
  rfl

end Cert.RowOps

end
-- ==== Proof.Pay1.lean ====
/-
  The second kernel's body at an index. On a block of 2000 node rows it divides the summed messages by the larger of the
  message count and one, normalises that mean (LayerNorm with the first gain and bias), pushes the node's own row away from
  it and normalises again, puts the two normalised rows side by side and applies the second two-layer ReLU perceptron.
  Entry `(p, q)` of what it stores depends on row `p` of each row-blocked input alone: it is `nodeRow` of those rows.
-/
import proofs.«131608_j86045374808683_2_alg».proof.Proof.Gen.KernelIdeal.Skeleton
import proofs.«131608_j86045374808683_2_alg».proof.Proof.Spec
import proofs.«131608_j86045374808683_2_alg».proof.Proof.RowOps
import Idealize.ShloMosaic.Lib.Pipeline.Value

noncomputable section

namespace Cert.KernelIdeal.Node

open Idealize.ShloMosaic Idealize.ShloMosaic.ValueIdx Cert.KernelIdeal Cert.KernelIdeal.Gen Cert.Spec Cert.RowOps

variable [Facts]

/-- The first normalisation, before its gain and bias: the LayerNorm core of the mean message of row `p`. -/
theorem pay6_apply (s : FVec Ideal S2000x64 .f32) (cnt : FVec Ideal S2000x1 .f32) (p : Fin 2000) (q : Fin 64) :
    k1_pay6 (F := Ideal) s cnt (ix2 p q) = lnCore (aggRow (fun k => s (ix2 p k)) (cnt (ix2 p (0 : Fin 1)))) q := by
  unfold k1_pay6
  refine (lnCore_vec _ reduces_S2000x64_S2000 _ rfl shapeCasts_S2000_S2000x1 broadcasts_S2000x1_S2000x64 p q).trans ?_
  refine congrArg (fun f => lnCore f q) (funext fun k => ?_)
  show Ideal.div (shapeCast S2000x64 s shapeCasts_S2000x64_S2000x64 (ix2 p k))
      (broadcastTo S2000x64 (maximumf (shapeCast S2000x1 cnt shapeCasts_S2000x1_S2000x1) (broadcast S2000x1 (Scalar.ofBits (F := Ideal) .f32 0x3F800000#32)))
        broadcasts_S2000x1_S2000x64 (ix2 p k)) = _
  rw [shapeCast_self, Cert.Layout.bcast_col]
  show Ideal.div _ (max (shapeCast S2000x1 cnt shapeCasts_S2000x1_S2000x1 (ix2 p (0 : Fin 1))) ONE) = _
  rw [shapeCast_self]
  rfl

/-- The rest of the body, from the first normalised core `l`: gain and bias, the push, the second LayerNorm, the perceptron. -/
theorem pay7_apply (x : FVec Ideal S2000x64 .f32) (g1 b1 w g2 b2 : FVec Ideal S1x64 .f32) (l : FVec Ideal S2000x64 .f32)
    (A : FVec Ideal S128x64 .f32) (B : FVec Ideal S64x64 .f32) (p : Fin 2000) (q : Fin 64) :
    k1_pay7 (F := Ideal) x g1 b1 w g2 b2 l A B (ix2 p q)
      = mlpRow (cat
          (lnRow (repelRow (fun k => x (ix2 p k)) (fun k => l (ix2 p k) * g1 (ix2 (0 : Fin 1) k) + b1 (ix2 (0 : Fin 1) k)) (fun k => w (ix2 (0 : Fin 1) k)))
            (fun k => g2 (ix2 (0 : Fin 1) k)) (fun k => b2 (ix2 (0 : Fin 1) k)))
          (fun k => l (ix2 p k) * g1 (ix2 (0 : Fin 1) k) + b1 (ix2 (0 : Fin 1) k))) A B q := by
  have hl1 : ∀ k : Fin 64, addf (mulf l (broadcastTo S2000x64 g1 broadcasts_S1x64_S2000x64)) (broadcastTo S2000x64 b1 broadcasts_S1x64_S2000x64) (ix2 p k)
      = l (ix2 p k) * g1 (ix2 (0 : Fin 1) k) + b1 (ix2 (0 : Fin 1) k) := fun k => by
    show l (ix2 p k) * broadcastTo S2000x64 g1 broadcasts_S1x64_S2000x64 (ix2 p k) + broadcastTo S2000x64 b1 broadcasts_S1x64_S2000x64 (ix2 p k) = _
    rw [Cert.Lib.Rows.broadcastTo_row_apply, Cert.Lib.Rows.broadcastTo_row_apply]
  unfold k1_pay7
  refine (mlp_vec _ _ _ bitsLt_bf16_f32 p q).trans ?_
  refine mlpRow_congr (fun j => ?_) ?_ ?_ rfl
  · show concatenate S2000x128 1 [⟨S2000x64, _⟩, ⟨S2000x64, _⟩] concatenates_S2000x64_S2000x64_S2000x128_d1 (ix2 p j) = _
    rw [concat_cat]
    refine cat_congr (fun k => ?_) (fun k => hl1 k) j
    -- the second LayerNorm, its gain and its bias
    show (mulf _ _ (ix2 p k)) * broadcastTo S2000x64 g2 broadcasts_S1x64_S2000x64 (ix2 p k)
      + broadcastTo S2000x64 b2 broadcasts_S1x64_S2000x64 (ix2 p k) = _
    rw [Cert.Lib.Rows.broadcastTo_row_apply, Cert.Lib.Rows.broadcastTo_row_apply]
    unfold lnRow
    refine congrArg (fun s : EReal => s * g2 (ix2 (0 : Fin 1) k) + b2 (ix2 (0 : Fin 1) k)) ?_
    refine (lnCore_vec _ reduces_S2000x64_S2000 _ rfl shapeCasts_S2000_S2000x1 broadcasts_S2000x1_S2000x64 p k).trans ?_
    refine congrArg (fun f => lnCore f k) (funext fun k' => ?_)
    unfold repelRow
    show x (ix2 p k') + (x (ix2 p k') - addf (mulf l (broadcastTo S2000x64 g1 broadcasts_S1x64_S2000x64)) (broadcastTo S2000x64 b1 broadcasts_S1x64_S2000x64) (ix2 p k'))
      * broadcastTo S2000x64 w broadcasts_S1x64_S2000x64 (ix2 p k') = _
    rw [hl1 k', Cert.Lib.Rows.broadcastTo_row_apply]
  · funext i
    show shapeCast S128x64 A shapeCasts_S128x64_S128x64 i = A i
    rw [shapeCast_self]
  · funext i
    show shapeCast S64x64 B shapeCasts_S64x64_S64x64 i = B i
    rw [shapeCast_self]

/-- The five row inputs pass through an identity cast. -/
theorem pay1_eq (v : FVec Ideal S1x64 .f32) : k1_pay1 (F := Ideal) v = v := by unfold k1_pay1; exact shapeCast_self v _
theorem pay2_eq (v : FVec Ideal S1x64 .f32) : k1_pay2 (F := Ideal) v = v := by unfold k1_pay2; exact shapeCast_self v _
theorem pay3_eq (v : FVec Ideal S1x64 .f32) : k1_pay3 (F := Ideal) v = v := by unfold k1_pay3; exact shapeCast_self v _
theorem pay4_eq (v : FVec Ideal S1x64 .f32) : k1_pay4 (F := Ideal) v = v := by unfold k1_pay4; exact shapeCast_self v _
theorem pay5_eq (v : FVec Ideal S1x64 .f32) : k1_pay5 (F := Ideal) v = v := by unfold k1_pay5; exact shapeCast_self v _

/-- The whole body: entry `(p, q)` of the stored block is `nodeRow` of row `p` of the blocks. -/
theorem body_apply (x s : FVec Ideal S2000x64 .f32) (cnt : FVec Ideal S2000x1 .f32) (g1 b1 w g2 b2 : FVec Ideal S1x64 .f32)
    (A : FVec Ideal S128x64 .f32) (B : FVec Ideal S64x64 .f32) (p : Fin 2000) (q : Fin 64) :
    k1_pay7 (F := Ideal) x (k1_pay1 g1) (k1_pay2 b1) (k1_pay3 w) (k1_pay4 g2) (k1_pay5 b2) (k1_pay6 s cnt) A B (ix2 p q)
      = nodeRow (fun k => x (ix2 p k)) (fun k => s (ix2 p k)) (cnt (ix2 p (0 : Fin 1))) (fun k => g1 (ix2 (0 : Fin 1) k))
          (fun k => b1 (ix2 (0 : Fin 1) k)) (fun k => w (ix2 (0 : Fin 1) k)) (fun k => g2 (ix2 (0 : Fin 1) k))
          (fun k => b2 (ix2 (0 : Fin 1) k)) A B q := by
  rw [pay1_eq, pay2_eq, pay3_eq, pay4_eq, pay5_eq, pay7_apply]
  unfold nodeRow
  have hl : ∀ k : Fin 64, k1_pay6 (F := Ideal) s cnt (ix2 p k) * g1 (ix2 (0 : Fin 1) k) + b1 (ix2 (0 : Fin 1) k)
      = lnRow (aggRow (fun k => s (ix2 p k)) (cnt (ix2 p (0 : Fin 1)))) (fun k => g1 (ix2 (0 : Fin 1) k)) (fun k => b1 (ix2 (0 : Fin 1) k)) k := fun k => by
    rw [pay6_apply]; rfl
  refine mlpRow_congr (fun j => ?_) rfl rfl rfl
  refine cat_congr (fun k => ?_) hl j
  rw [show (fun k => k1_pay6 (F := Ideal) s cnt (ix2 p k) * g1 (ix2 (0 : Fin 1) k) + b1 (ix2 (0 : Fin 1) k))
    = lnRow (aggRow (fun k => s (ix2 p k)) (cnt (ix2 p (0 : Fin 1)))) (fun k => g1 (ix2 (0 : Fin 1) k)) (fun k => b1 (ix2 (0 : Fin 1) k)) from funext hl]

end Cert.KernelIdeal.Node

end
-- ==== Proof.Region1.lean ====
/-
  The second region's output array. The grid has 25 points; point `t` reads rows `2000·t … 2000·t + 1999` of the node
  matrix, of the summed messages and of the message counts, the five gain / bias / weight rows and the two (transposed)
  weight matrices whole, and writes back `nodeRow` of those rows. The 25 written blocks tile the `[50000, 64]` result, so
  after the region the result holds, at `(n, c)`, output feature `c` of `nodeRow` of node `n`'s own row, summed messages and
  message count: one function of the arrays the region found, whatever the tiling.
-/
import proofs.«131608_j86045374808683_2_alg».proof.Proof.Gen.KernelIdeal.Frame
import proofs.«131608_j86045374808683_2_alg».proof.Proof.Pay1
import proofs.«131608_j86045374808683_2_alg».proof.Proof.Spec
import proofs.«131608_j86045374808683_2_alg».proof.Proof.RowOps
import Idealize.ShloMosaic.Lib.Pipeline.Value

set_option maxRecDepth 16384

noncomputable section

namespace Cert.KernelIdeal.Region1

open Idealize.ShloMosaic Idealize.ShloMosaic.TcCoe Idealize.ShloMosaic.Tactic Idealize.SL.Sem Idealize.ShloMosaic.ValueIdx
open Cert.KernelIdeal Cert.KernelIdeal.Gen Cert.Spec Cert.RowOps
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the row-blocked windows move with the point, the others stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

/-- The result as one function of the arrays the region finds: `nodeRow` of each node's rows. -/
def outArr (c : Dev nD) : S50000x64.Idx → EReal := fun i =>
  nodeRow (fun q => V3 m ρ c main_arg0 (ix2 (i 0) q)) (fun q => V3 m ρ c main_v20 (ix2 (i 0) q))
    (V3 m ρ c main_v21 (ix2 (i 0) (0 : Fin 1)))
    (fun q => V3 m ρ c main_v22 (ix2 (0 : Fin 1) q)) (fun q => V3 m ρ c main_v23 (ix2 (0 : Fin 1) q))
    (fun q => V3 m ρ c main_v24 (ix2 (0 : Fin 1) q)) (fun q => V3 m ρ c main_v25 (ix2 (0 : Fin 1) q))
    (fun q => V3 m ρ c main_v26 (ix2 (0 : Fin 1) q)) (V3 m ρ c main_v27) (V3 m ρ c main_v28) (i 1)

set_option maxHeartbeats 4000000 in
theorem flushed_eq (c : Dev nD) (t : Fin cfg1.N) :
    (dat1 (V3 m ρ) c).flushed 10 t = ((cfg1.win 10).blk t).view.read (Elt Ideal) (outArr m ρ c) := by
  show (cfg1.win 10).cut (grid1.coords t) ((dat1 (V3 m ρ) c).after 10 t) = _
  rw [after1_10]
  unfold out1_10
  rw [View.canon_unit_zero hz]
  simp only [View.ld_unit_zero (S := S2000x64) hz, View.ld_unit_zero (S := S2000x1) hz, View.ld_unit_zero (S := S1x64) hz,
    View.ld_unit_zero (S := S128x64) hz, View.ld_unit_zero (S := S64x64) hz]
  obtain ⟨a00, a01, a10, a11, a20, a21, a30, a31, a40, a41, a50, a51, a60, a61, a70, a71, a80, a81, a90, a91, o0, o1⟩ := idx_facts t
  funext j
  obtain ⟨p, q, rfl⟩ : ∃ (p : Fin 2000) (q : Fin 64), j = ix2 p q := ⟨j 0, j 1, eq_ix2 j⟩
  -- the stored entry against the result at ANY index whose row is the point's row `p` and whose feature is `q`
  have key : ∀ i' : S50000x64.Idx, (i' 0).val = t.val * 2000 + p.val → i' 1 = q →
      k1_pay7 (F := Ideal) (iblk1 (V3 m ρ) c 0 t) (k1_pay1 (iblk1 (V3 m ρ) c 3 t)) (k1_pay2 (iblk1 (V3 m ρ) c 4 t))
        (k1_pay3 (iblk1 (V3 m ρ) c 5 t)) (k1_pay4 (iblk1 (V3 m ρ) c 6 t)) (k1_pay5 (iblk1 (V3 m ρ) c 7 t))
        (k1_pay6 (iblk1 (V3 m ρ) c 1 t) (iblk1 (V3 m ρ) c 2 t)) (iblk1 (V3 m ρ) c 8 t) (iblk1 (V3 m ρ) c 9 t) (ix2 p q)
      = outArr m ρ c i' := fun i' hn hq => by
    have hx : ∀ k : Fin 64, iblk1 (V3 m ρ) c 0 t (ix2 p k) = V3 m ρ c main_arg0 (ix2 (i' 0) k) := fun k => by
      show V3 m ρ c main_arg0 (((cfg1.win 0).blk t).view.emb (ix2 p k)) = _
      refine congrArg _ (funext fun a => Fin.ext ?_)
      match a with
      | ⟨0, _⟩ => show win1_0.index t (0 : Fin 2) * 2000 + 1 * p.val = (i' 0).val; omega
      | ⟨1, _⟩ => show win1_0.index t (1 : Fin 2) * 64 + 1 * k.val = k.val; omega
    have hs : ∀ k : Fin 64, iblk1 (V3 m ρ) c 1 t (ix2 p k) = V3 m ρ c main_v20 (ix2 (i' 0) k) := fun k => by
      show V3 m ρ c main_v20 (((cfg1.win 1).blk t).view.emb (ix2 p k)) = _
      refine congrArg _ (funext fun a => Fin.ext ?_)
      match a with
      | ⟨0, _⟩ => show win1_1.index t (0 : Fin 2) * 2000 + 1 * p.val = (i' 0).val; omega
      | ⟨1, _⟩ => show win1_1.index t (1 : Fin 2) * 64 + 1 * k.val = k.val; omega
    have hc : iblk1 (V3 m ρ) c 2 t (ix2 p (0 : Fin 1)) = V3 m ρ c main_v21 (ix2 (i' 0) (0 : Fin 1)) := by
      show V3 m ρ c main_v21 (((cfg1.win 2).blk t).view.emb (ix2 p (0 : Fin 1))) = _
      refine congrArg _ (funext fun a => Fin.ext ?_)
      match a with
      | ⟨0, _⟩ => show win1_2.index t (0 : Fin 2) * 2000 + 1 * p.val = (i' 0).val; omega
      | ⟨1, _⟩ => show win1_2.index t (1 : Fin 2) * 1 + 1 * 0 = 0; omega
    have h3 : ∀ k : Fin 64, iblk1 (V3 m ρ) c 3 t (ix2 (0 : Fin 1) k) = V3 m ρ c main_v22 (ix2 (0 : Fin 1) k) := fun k => by
      show V3 m ρ c main_v22 (((cfg1.win 3).blk t).view.emb (ix2 (0 : Fin 1) k)) = _
      refine congrArg _ (funext fun a => Fin.ext ?_)
      match a with
      | ⟨0, _⟩ => show win1_3.index t (0 : Fin 2) * 1 + 1 * 0 = 0; omega
      | ⟨1, _⟩ => show win1_3.index t (1 : Fin 2) * 64 + 1 * k.val = k.val; omega
    have h4 : ∀ k : Fin 64, iblk1 (V3 m ρ) c 4 t (ix2 (0 : Fin 1) k) = V3 m ρ c main_v23 (ix2 (0 : Fin 1) k) := fun k => by
      show V3 m ρ c main_v23 (((cfg1.win 4).blk t).view.emb (ix2 (0 : Fin 1) k)) = _
      refine congrArg _ (funext fun a => Fin.ext ?_)
      match a with
      | ⟨0, _⟩ => show win1_4.index t (0 : Fin 2) * 1 + 1 * 0 = 0; omega
      | ⟨1, _⟩ => show win1_4.index t (1 : Fin 2) * 64 + 1 * k.val = k.val; omega
    have h5 : ∀ k : Fin 64, iblk1 (V3 m ρ) c 5 t (ix2 (0 : Fin 1) k) = V3 m ρ c main_v24 (ix2 (0 : Fin 1) k) := fun k => by
      show V3 m ρ c main_v24 (((cfg1.win 5).blk t).view.emb (ix2 (0 : Fin 1) k)) = _
      refine congrArg _ (funext fun a => Fin.ext ?_)
      match a with
      | ⟨0, _⟩ => show win1_5.index t (0 : Fin 2) * 1 + 1 * 0 = 0; omega
      | ⟨1, _⟩ => show win1_5.index t (1 : Fin 2) * 64 + 1 * k.val = k.val; omega
    have h6 : ∀ k : Fin 64, iblk1 (V3 m ρ) c 6 t (ix2 (0 : Fin 1) k) = V3 m ρ c main_v25 (ix2 (0 : Fin 1) k) := fun k => by
      show V3 m ρ c main_v25 (((cfg1.win 6).blk t).view.emb (ix2 (0 : Fin 1) k)) = _
      refine congrArg _ (funext fun a => Fin.ext ?_)
      match a with
      | ⟨0, _⟩ => show win1_6.index t (0 : Fin 2) * 1 + 1 * 0 = 0; omega
      | ⟨1, _⟩ => show win1_6.index t (1 : Fin 2) * 64 + 1 * k.val = k.val; omega
    have h7 : ∀ k : Fin 64, iblk1 (V3 m ρ) c 7 t (ix2 (0 : Fin 1) k) = V3 m ρ c main_v26 (ix2 (0 : Fin 1) k) := fun k => by
      show V3 m ρ c main_v26 (((cfg1.win 7).blk t).view.emb (ix2 (0 : Fin 1) k)) = _
      refine congrArg _ (funext fun a => Fin.ext ?_)
      match a with
      | ⟨0, _⟩ => show win1_7.index t (0 : Fin 2) * 1 + 1 * 0 = 0; omega
      | ⟨1, _⟩ => show win1_7.index t (1 : Fin 2) * 64 + 1 * k.val = k.val; omega
    have h8 : iblk1 (V3 m ρ) c 8 t = V3 m ρ c main_v27 := by
      funext y
      show V3 m ρ c main_v27 (((cfg1.win 8).blk t).view.emb y) = _
      refine congrArg _ (funext fun a => Fin.ext ?_)
      match a with
      | ⟨0, _⟩ => show win1_8.index t (0 : Fin 2) * 128 + 1 * (y 0).val = (y 0).val; omega
      | ⟨1, _⟩ => show win1_8.index t (1 : Fin 2) * 64 + 1 * (y 1).val = (y 1).val; omega
    have h9 : iblk1 (V3 m ρ) c 9 t = V3 m ρ c main_v28 := by
      funext y
      show V3 m ρ c main_v28 (((cfg1.win 9).blk t).view.emb y) = _
      refine congrArg _ (funext fun a => Fin.ext ?_)
      match a with
      | ⟨0, _⟩ => show win1_9.index t (0 : Fin 2) * 64 + 1 * (y 0).val = (y 0).val; omega
      | ⟨1, _⟩ => show win1_9.index t (1 : Fin 2) * 64 + 1 * (y 1).val = (y 1).val; omega
    refine (Node.body_apply (iblk1 (V3 m ρ) c 0 t) (iblk1 (V3 m ρ) c 1 t) (iblk1 (V3 m ρ) c 2 t) (iblk1 (V3 m ρ) c 3 t)
      (iblk1 (V3 m ρ) c 4 t) (iblk1 (V3 m ρ) c 5 t) (iblk1 (V3 m ρ) c 6 t) (iblk1 (V3 m ρ) c 7 t) (iblk1 (V3 m ρ) c 8 t)
      (iblk1 (V3 m ρ) c 9 t) p q).trans ?_
    unfold outArr
    exact nodeRow_congr
      (xr := fun k => iblk1 (V3 m ρ) c 0 t (ix2 p k)) (xr' := fun q' => V3 m ρ c main_arg0 (ix2 (i' 0) q'))
      (sr := fun k => iblk1 (V3 m ρ) c 1 t (ix2 p k)) (sr' := fun q' => V3 m ρ c main_v20 (ix2 (i' 0) q'))
      (cnt := iblk1 (V3 m ρ) c 2 t (ix2 p (0 : Fin 1))) (cnt' := V3 m ρ c main_v21 (ix2 (i' 0) (0 : Fin 1)))
      (g1 := fun k => iblk1 (V3 m ρ) c 3 t (ix2 (0 : Fin 1) k)) (g1' := fun q' => V3 m ρ c main_v22 (ix2 (0 : Fin 1) q'))
      (b1 := fun k => iblk1 (V3 m ρ) c 4 t (ix2 (0 : Fin 1) k)) (b1' := fun q' => V3 m ρ c main_v23 (ix2 (0 : Fin 1) q'))
      (w := fun k => iblk1 (V3 m ρ) c 5 t (ix2 (0 : Fin 1) k)) (w' := fun q' => V3 m ρ c main_v24 (ix2 (0 : Fin 1) q'))
      (g2 := fun k => iblk1 (V3 m ρ) c 6 t (ix2 (0 : Fin 1) k)) (g2' := fun q' => V3 m ρ c main_v25 (ix2 (0 : Fin 1) q'))
      (b2 := fun k => iblk1 (V3 m ρ) c 7 t (ix2 (0 : Fin 1) k)) (b2' := fun q' => V3 m ρ c main_v26 (ix2 (0 : Fin 1) q'))
      (A := iblk1 (V3 m ρ) c 8 t) (A' := V3 m ρ c main_v27) (B := iblk1 (V3 m ρ) c 9 t) (B' := V3 m ρ c main_v28)
      (c := q) (c' := i' 1) hx hs hc h3 h4 h5 h6 h7 h8 h9 hq.symm
  exact key _ (by show win1_10.index t (0 : Fin 2) * 2000 + 1 * p.val = _; omega)
    (Fin.ext (by show win1_10.index t (1 : Fin 2) * 64 + 1 * q.val = q.val; omega))

/-! ## The written blocks tile the result -/

theorem mem_blk (t : Fin cfg1.N) (i : S50000x64.Idx) :
    i ∈ ((cfg1.win 10).blk t).view.set ↔ ∀ a : Fin 2, win1_10.index t a * S2000x64.size a ≤ (i a).val
      ∧ (i a).val < win1_10.index t a * S2000x64.size a + S2000x64.size a := by
  show i ∈ ((View.whole main_v29).slice (win1_10.rect t)).set ↔ _
  rw [View.set_slice_whole, Rect.mem_set_unit]
  exact Iff.rfl

theorem cover (i : S50000x64.Idx) :
    ∃ t : Fin cfg1.N, (cfg1.win 10).flush t = true ∧ i ∈ ((cfg1.win 10).blk t).view.set := by
  have hi0 : (i 0).val < 50000 := (i 0).isLt
  have hi1 : (i 1).val < 64 := (i 1).isLt
  have hN : grid1.N = 25 := N_1
  have ht : (i 0).val / 2000 < grid1.N := by rw [hN]; omega
  refine ⟨⟨(i 0).val / 2000, ht⟩, flush1_10 _, ?_⟩
  rw [mem_blk]
  obtain ⟨-, -, -, -, -, -, -, -, -, -, -, -, -, -, -, -, -, -, -, -, o0, o1⟩ := idx_facts ⟨(i 0).val / 2000, ht⟩
  intro a
  match a with
  | ⟨0, _⟩ =>
    show win1_10.index ⟨(i 0).val / 2000, ht⟩ (0 : Fin 2) * 2000 ≤ (i 0).val
      ∧ (i 0).val < win1_10.index ⟨(i 0).val / 2000, ht⟩ (0 : Fin 2) * 2000 + 2000
    rw [o0]
    show (i 0).val / 2000 * 2000 ≤ (i 0).val ∧ (i 0).val < (i 0).val / 2000 * 2000 + 2000
    omega
  | ⟨1, _⟩ =>
    show win1_10.index ⟨(i 0).val / 2000, ht⟩ (1 : Fin 2) * 64 ≤ (i 1).val
      ∧ (i 1).val < win1_10.index ⟨(i 0).val / 2000, ht⟩ (1 : Fin 2) * 64 + 64
    rw [o1]
    omega

/-- After the region, the result array is `nodeRow` of every node's rows. -/
theorem final (c : Dev nD) : (dat1 (V3 m ρ) c).arrAt 10 cfg1.N = outArr m ρ c :=
  (dat1 (V3 m ρ) c).arrAt_eq_of_cover 10 (outArr m ρ c) (fun t _ => flushed_eq m ρ c t) cover

/-- The same, at the last boundary. -/
theorem W4_v29 (c : Dev nD) : W4 m ρ c (Proc.devRef .tc main_v29) = outArr m ρ c :=
  (W4_arr m ρ c 10).trans (final m ρ c)

end Cert.KernelIdeal.Region1

end
-- ==== Proof.Pay0.lean ====
/-
  The first kernel's body at an index: on a block of 5000 node rows it applies the two bias-free linear layers with a ReLU
  between (the weights arrive already transposed, `[in, out]`), so entry `(p, q)` of what it stores depends on row `p` of
  the block alone: it is the perceptron of that row, feature `q`. The changes of float format are the identity on the
  extended reals, the two matrix products into a zero accumulator are plain sums over the 64 contracted features.
-/
import proofs.«131608_j86045374808683_2_alg».proof.Proof.Gen.KernelIdeal.Skeleton
import proofs.«131608_j86045374808683_2_alg».proof.Proof.Spec
import proofs.«131608_j86045374808683_2_alg».proof.Proof.RowOps
import Idealize.ShloMosaic.Lib.Pipeline.Value

noncomputable section

namespace Cert.KernelIdeal.Mlp1

open Idealize.ShloMosaic Idealize.ShloMosaic.ValueIdx Cert.KernelIdeal Cert.KernelIdeal.Gen Cert.Spec

variable [Facts]

/-- Entry `(p, q)` of the first kernel's stored block is the perceptron of row `p` of its input block. -/
theorem pay_apply (x : FVec Ideal S5000x64 .f32) (A B : FVec Ideal S64x64 .f32) (p : Fin 5000) (q : Fin 64) :
    k0_pay1 (F := Ideal) x A B (ix2 p q) = mlpRow (fun j => x (ix2 p j)) A B q := by
  unfold k0_pay1
  refine (Cert.RowOps.mlp_vec _ _ _ bitsLt_bf16_f32 p q).trans ?_
  refine mlpRow_congr (fun j => rfl) ?_ ?_ rfl
  · funext i
    show shapeCast S64x64 A shapeCasts_S64x64_S64x64 i = A i
    rw [shapeCast_self]
  · funext i
    show shapeCast S64x64 B shapeCasts_S64x64_S64x64 i = B i
    rw [shapeCast_self]

end Cert.KernelIdeal.Mlp1

end
-- ==== Proof.Region0.lean ====
/-
  The first region's output array. The grid has ten points; point `t` reads rows `5000·t … 5000·t + 4999` of the node
  matrix and the two (already transposed) weight matrices whole, and writes back the perceptron of those rows. The ten
  written blocks tile the `[50000, 64]` array, so after the region the array holds, at `(n, q)`, feature `q` of the
  perceptron of node row `n`: one function of the argument arrays, whatever the tiling.
-/
import proofs.«131608_j86045374808683_2_alg».proof.Proof.Gen.KernelIdeal.Frame
import proofs.«131608_j86045374808683_2_alg».proof.Proof.Pay0
import proofs.«131608_j86045374808683_2_alg».proof.Proof.Spec
import Idealize.ShloMosaic.Lib.Pipeline.Value
import Idealize.ShloMosaic.Lib.StableHlo.Run

set_option maxRecDepth 16384

noncomputable section

namespace Cert.KernelIdeal.Region0

open Idealize.ShloMosaic Idealize.ShloMosaic.TcCoe Idealize.ShloMosaic.Tactic Idealize.SL.Sem Idealize.ShloMosaic.ValueIdx
open Idealize.ShloMosaic.StableHlo
open Cert.KernelIdeal Cert.KernelIdeal.Gen Cert.Spec
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the row-blocked windows move with the point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The arrays as the region finds them -/

theorem V1_arg0 (c : Dev nD) : V1 m ρ c main_arg0 = m ((c : Thread nD τ).loc main_arg0) := by
  show StableHlo.after hostOps0 (W0 m ρ c) (Proc.devRef .tc main_arg0) = _
  after_results

theorem V1_v4 (c : Dev nD) : V1 m ρ c main_v4
    = transpose S64x64 [1, 0] (m ((c : Thread nD τ).loc main_arg2)) transposes_S64x64_S64x64_1_0 := by
  show StableHlo.after hostOps0 (W0 m ρ c) (Proc.devRef .tc main_v4) = _
  after_results

theorem V1_v5 (c : Dev nD) : V1 m ρ c main_v5
    = transpose S64x64 [1, 0] (m ((c : Thread nD τ).loc main_arg3)) transposes_S64x64_S64x64_1_0 := by
  show StableHlo.after hostOps0 (W0 m ρ c) (Proc.devRef .tc main_v5) = _
  after_results

/-- The perceptron of every node row, the weights transposed as the host does before the call. -/
abbrev nodesMlp (c : Dev nD) : S50000x64.Idx → EReal :=
  mlpArr (m ((c : Thread nD τ).loc main_arg0))
    (transpose S64x64 [1, 0] (m ((c : Thread nD τ).loc main_arg2)) transposes_S64x64_S64x64_1_0)
    (transpose S64x64 [1, 0] (m ((c : Thread nD τ).loc main_arg3)) transposes_S64x64_S64x64_1_0)

/-! ## What a point writes back -/

theorem flushed_eq (c : Dev nD) (t : Fin cfg0.N) :
    (dat0 (V1 m ρ) c).flushed 3 t = ((cfg0.win 3).blk t).view.read (Elt Ideal) (nodesMlp m c) := by
  show (cfg0.win 3).cut (grid0.coords t) ((dat0 (V1 m ρ) c).after 3 t) = _
  rw [after0_3]
  unfold out0_3
  rw [View.canon_unit_zero hz]
  simp only [View.ld_unit_zero (S := S5000x64) hz, View.ld_unit_zero (S := S64x64) hz]
  obtain ⟨e0, e1, e2, e3, e4, e5, e6, e7⟩ := idx_facts t
  funext j
  obtain ⟨p, q, rfl⟩ : ∃ (p : Fin 5000) (q : Fin 64), j = ix2 p q := ⟨j 0, j 1, eq_ix2 j⟩
  show k0_pay1 (F := Ideal) (iblk0 (V1 m ρ) c 0 t) (iblk0 (V1 m ρ) c 1 t) (iblk0 (V1 m ρ) c 2 t) (ix2 p q)
    = nodesMlp m c (((cfg0.win 3).blk t).view.emb (ix2 p q))
  refine (Mlp1.pay_apply (iblk0 (V1 m ρ) c 0 t) (iblk0 (V1 m ρ) c 1 t) (iblk0 (V1 m ρ) c 2 t) p q).trans ?_
  refine mlpRow_congr (fun j => ?_) ?_ ?_ ?_
  · show V1 m ρ c main_arg0 (((cfg0.win 0).blk t).view.emb (ix2 p j)) = _
    rw [V1_arg0]
    refine congrArg _ (funext fun a => Fin.ext ?_)
    match a with
    | ⟨0, _⟩ =>
      show win0_0.index t (0 : Fin 2) * 5000 + 1 * p.val = win0_3.index t (0 : Fin 2) * 5000 + 1 * p.val
      omega
    | ⟨1, _⟩ =>
      show win0_0.index t (1 : Fin 2) * 64 + 1 * j.val = j.val
      omega
  · funext y
    show V1 m ρ c main_v4 (((cfg0.win 1).blk t).view.emb y) = _
    rw [V1_v4]
    refine congrArg _ (funext fun a => Fin.ext ?_)
    match a with
    | ⟨0, _⟩ => show win0_1.index t (0 : Fin 2) * 64 + 1 * (y 0).val = (y 0).val; omega
    | ⟨1, _⟩ => show win0_1.index t (1 : Fin 2) * 64 + 1 * (y 1).val = (y 1).val; omega
  · funext y
    show V1 m ρ c main_v5 (((cfg0.win 2).blk t).view.emb y) = _
    rw [V1_v5]
    refine congrArg _ (funext fun a => Fin.ext ?_)
    match a with
    | ⟨0, _⟩ => show win0_2.index t (0 : Fin 2) * 64 + 1 * (y 0).val = (y 0).val; omega
    | ⟨1, _⟩ => show win0_2.index t (1 : Fin 2) * 64 + 1 * (y 1).val = (y 1).val; omega
  · refine Fin.ext ?_
    show q.val = win0_3.index t (1 : Fin 2) * 64 + 1 * q.val
    omega

/-! ## The written blocks tile the array -/

theorem mem_blk (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v6).slice (win0_3.rect t)).set ↔ _
  rw [View.set_slice_whole, Rect.mem_set_unit]
  exact Iff.rfl

theorem cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : grid0.N = 10 := N_0
  have ht : (i 0).val / 5000 < grid0.N := by rw [hN]; omega
  refine ⟨⟨(i 0).val / 5000, ht⟩, flush0_3 _, ?_⟩
  rw [mem_blk]
  obtain ⟨-, -, -, -, -, -, e6, e7⟩ := idx_facts ⟨(i 0).val / 5000, ht⟩
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e6]
    show (i 0).val / 5000 * 5000 ≤ (i 0).val ∧ (i 0).val < (i 0).val / 5000 * 5000 + 5000
    omega
  | ⟨1, _⟩ =>
    show win0_3.index ⟨(i 0).val / 5000, ht⟩ (1 : Fin 2) * 64 ≤ (i 1).val
      ∧ (i 1).val < win0_3.index ⟨(i 0).val / 5000, ht⟩ (1 : Fin 2) * 64 + 64
    rw [e7]
    omega

/-- After the region, the output array is the perceptron of every node row. -/
theorem final (c : Dev nD) : (dat0 (V1 m ρ) c).arrAt 3 cfg0.N = nodesMlp m c :=
  (dat0 (V1 m ρ) c).arrAt_eq_of_cover 3 (nodesMlp m c) (fun t _ => flushed_eq m ρ c t) cover

/-- The same, at the boundary after the region. -/
theorem W2_v6 (c : Dev nD) : W2 m ρ c (Proc.devRef .tc main_v6) = nodesMlp m c :=
  (W2_arr m ρ c 3).trans (final m ρ c)

end Cert.KernelIdeal.Region0

end
-- ==== Proof.LibSegment.lean ====
/-
  Whole rows gathered out of a matrix and whole rows scatter-added into one, read at an index, generic in the extents.

  A gather that takes, for every edge `e`, the whole row `src e` of an `[N, C]` matrix (one start index per edge, the row
  axis collapsed, the column axis kept as the offset axis) reads, at `(e, q)`, the matrix at `(src e, q)`: the row is the
  edge's start index read signed and clamped into `[0, N - 1]`, and it does not depend on the column.

  A scatter-add of the rows of an `[E, C]` matrix into an `[N, C]` one (one scatter index per edge, the row axis inserted,
  the column axis the window axis) sends update `(e, q)` to `(dst e, q)`, where `dst e` is the edge's index read signed
  when it lies in `[0, N)` and nothing otherwise (the update is dropped). So the updates landing at `(n, q)` are exactly
  `(e, q)` over the edges with `dst e = n`: a column of the scattered matrix is the segment sum of that column, and the
  destination set does not depend on the column. The same holds for a vector of `E` numbers scattered into `N`.
-/
import Idealize.ShloMosaic.Lib.ValueIdx
import Idealize.ShloMosaic.PureOps.Ideal.Laws

noncomputable section

namespace Cert.Lib.Segment

open Idealize.ShloMosaic Idealize.ShloMosaic.ValueIdx

/-! ## Gathering whole rows -/

/-- The dimension numbers of "take row `idx[e]` of an `[N, C]` matrix, for every `e < E`". -/
abbrev rowGather (N E C : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its start index, signed, clamped into `[0, N - 1]`. -/
def srcRow {N E w : ℕ} (hN : 0 < N) (idx : IVec ⟨2, ![E, 1]⟩ w) (e : Fin E) : Fin N :=
  ⟨min (idx (ix2 e (0 : Fin 1))).toInt.toNat (N - 1), by omega⟩

theorem rowGather_start0 {N E C w : ℕ} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (q : Fin C) :
    (rowGather N E C wf).start (ix2 e q) idx 0 = (srcRow hN idx e).val := by
  unfold GatherDims.start
  rw [dif_pos (show (0 : Fin 2) ∈ (rowGather N E C wf).startIndexMap from List.mem_singleton.mpr rfl)]
  have hsi : (rowGather N E C wf).siIdx (ix2 e q) ⟨List.idxOf (0 : Fin 2) (rowGather N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rowGather_start1 {N E C w : ℕ}
    (wf : GatherDims.WF ⟨2, ![N, C]⟩ ⟨2, ![E, 1]⟩ ⟨2, ![E, C]⟩ [1] [0] [] [0] [] 1 ![1, C])
    (idx : IVec ⟨2, ![E, 1]⟩ w) (e : Fin E) (q : Fin C) :
    (rowGather N E C wf).start (ix2 e q) idx 1 = 0 := by
  unfold GatherDims.start
  rw [dif_neg (show (1 : Fin 2) ∉ ([0] : List (Fin 2)) from by decide)]

theorem rowGather_off0 {N E C : ℕ}
    (wf : GatherDims.WF ⟨2, ![N, C]⟩ ⟨2, ![E, 1]⟩ ⟨2, ![E, C]⟩ [1] [0] [] [0] [] 1 ![1, C])
    (e : Fin E) (q : Fin C) : (rowGather N E C wf).offCoord (ix2 e q) 0 = 0 :=
  GatherDims.offCoord_eq_zero _ _ _ (fun h => ((GatherDims.mem_sKept _ _).mp h).1 (List.mem_singleton.mpr rfl))

theorem rowGather_off1 {N E C : ℕ}
    (wf : GatherDims.WF ⟨2, ![N, C]⟩ ⟨2, ![E, 1]⟩ ⟨2, ![E, C]⟩ [1] [0] [] [0] [] 1 ![1, C])
    (e : Fin E) (q : Fin C) : (rowGather N E C wf).offCoord (ix2 e q) 1 = q.val := by
  unfold GatherDims.offCoord
  rw [dif_pos ((GatherDims.mem_sKept _ _).mpr ⟨show (1 : Fin 2) ∉ ([0] : List (Fin 2)) from by decide, List.not_mem_nil⟩)]
  rfl

/-- The operand index a row gather reads at `(e, q)` is `(srcRow e, q)`. -/
theorem rowGather_operandIdx {N E C w : ℕ} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (q : Fin C) :
    (rowGather N E C wf).operandIdx (ix2 e q) idx = ix2 (srcRow hN idx e) q := by
  have b0 : (rowGather N E C wf).batchCoord (ix2 e q) 0 = 0 := GatherDims.batchCoord_eq_zero _ _ _ List.not_mem_nil
  have b1 : (rowGather N E C wf).batchCoord (ix2 e q) 1 = 0 := GatherDims.batchCoord_eq_zero _ _ _ List.not_mem_nil
  funext a
  refine Fin.ext ?_
  match a with
  | ⟨0, _⟩ =>
    show (rowGather N E C wf).start (ix2 e q) idx 0 + (rowGather N E C wf).batchCoord (ix2 e q) 0
      + (rowGather N E C wf).offCoord (ix2 e q) 0 = (srcRow hN idx e).val
    rw [rowGather_start0 hN, b0, rowGather_off0]; omega
  | ⟨1, _⟩ =>
    show (rowGather N E C wf).start (ix2 e q) idx 1 + (rowGather N E C wf).batchCoord (ix2 e q) 1
      + (rowGather N E C wf).offCoord (ix2 e q) 1 = q.val
    rw [rowGather_start1, b1, rowGather_off1]; omega

/-- A row gather read at `(e, q)`. -/
theorem rowGather_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGather N E C wf) x idx (ix2 e q) = x (ix2 (srcRow hN idx e) q) := by
  unfold Host.gather
  rw [rowGather_operandIdx hN]

/-! ## Scatter-adding whole rows -/

/-- The row edge `e` adds into: its scatter index read signed, when that is a row of the operand. -/
def dstRow {E w : ℕ} (N : ℕ) (idx : IVec ⟨2, ![E, 1]⟩ w) (e : Fin E) : Option (Fin N) :=
  if h : 0 ≤ (idx (ix2 e (0 : Fin 1))).toInt ∧ (idx (ix2 e (0 : Fin 1))).toInt < N then
    some ⟨(idx (ix2 e (0 : Fin 1))).toInt.toNat, by omega⟩
  else none

theorem ix2_inj {a b : ℕ} {n n' : Fin a} {q q' : Fin b} : ix2 n q = ix2 n' q' ↔ n = n' ∧ q = q' :=
  ⟨fun h => ⟨congrFun h 0, congrFun h 1⟩, fun ⟨h, h'⟩ => by rw [h, h']⟩

/-- The dimension numbers of "add row `e` of an `[E, C]` matrix into row `idx[e]` of an `[N, C]` one". -/
abbrev rowScatter (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem rowScatter_start0 {N E C w : ℕ} (wf : ScatterDims.WF ⟨2, ![N, C]⟩ ⟨2, ![E, 1]⟩ ⟨2, ![E, C]⟩ [1] [0] [0] 1)
    (idx : IVec ⟨2, ![E, 1]⟩ w) (e : Fin E) (q : Fin C) :
    (rowScatter N E C wf).start (ix2 e q) idx 0 = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e q) ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rowScatter_start1 {N E C w : ℕ} (wf : ScatterDims.WF ⟨2, ![N, C]⟩ ⟨2, ![E, 1]⟩ ⟨2, ![E, C]⟩ [1] [0] [0] 1)
    (idx : IVec ⟨2, ![E, 1]⟩ w) (e : Fin E) (q : Fin C) :
    (rowScatter N E C wf).start (ix2 e q) idx 1 = 0 := by
  unfold ScatterDims.start
  rw [dif_neg (show (1 : Fin 2) ∉ ([0] : List (Fin 2)) from by decide)]

theorem rowScatter_window0 {N E C : ℕ} (wf : ScatterDims.WF ⟨2, ![N, C]⟩ ⟨2, ![E, 1]⟩ ⟨2, ![E, C]⟩ [1] [0] [0] 1)
    (e : Fin E) (q : Fin C) : (rowScatter N E C wf).window (ix2 e q) 0 = 0 := by
  unfold ScatterDims.window
  rw [dif_neg (show (0 : Fin 2) ∉ (rowScatter N E C wf).sKept from by simp [ScatterDims.sKept, Shape.kept])]

theorem rowScatter_window1 {N E C : ℕ} (wf : ScatterDims.WF ⟨2, ![N, C]⟩ ⟨2, ![E, 1]⟩ ⟨2, ![E, C]⟩ [1] [0] [0] 1)
    (e : Fin E) (q : Fin C) : (rowScatter N E C wf).window (ix2 e q) 1 = q.val := by
  unfold ScatterDims.window
  rw [dif_pos (show (1 : Fin 2) ∈ (rowScatter N E C wf).sKept from by simp [ScatterDims.sKept, Shape.kept])]
  rfl

/-- Where update `(e, q)` of a row scatter lands: `(dstRow e, q)`, or nowhere. -/
theorem rowScatter_resultIdx? {N E C w : ℕ} (wf : ScatterDims.WF ⟨2, ![N, C]⟩ ⟨2, ![E, 1]⟩ ⟨2, ![E, C]⟩ [1] [0] [0] 1)
    (idx : IVec ⟨2, ![E, 1]⟩ w) (e : Fin E) (q : Fin C) :
    (rowScatter N E C wf).resultIdx? (ix2 e q) idx = (dstRow N idx e).map fun n => ix2 n q := by
  have h0 := rowScatter_start0 wf idx e q
  have h1 := rowScatter_start1 wf idx e q
  have w0 := rowScatter_window0 wf e q
  have w1 := rowScatter_window1 wf e q
  unfold ScatterDims.resultIdx? dstRow
  by_cases hv : 0 ≤ (idx (ix2 e (0 : Fin 1))).toInt ∧ (idx (ix2 e (0 : Fin 1))).toInt < N
  · have p0 : 0 ≤ (rowScatter N E C wf).start (ix2 e q) idx 0 + ((rowScatter N E C wf).window (ix2 e q) 0 : ℤ)
        ∧ (rowScatter N E C wf).start (ix2 e q) idx 0 + ((rowScatter N E C wf).window (ix2 e q) 0 : ℤ) < (N : ℤ) := by
      rw [h0, w0]; exact ⟨by simpa using hv.1, by simpa using hv.2⟩
    have p1 : 0 ≤ (rowScatter N E C wf).start (ix2 e q) idx 1 + ((rowScatter N E C wf).window (ix2 e q) 1 : ℤ)
        ∧ (rowScatter N E C wf).start (ix2 e q) idx 1 + ((rowScatter N E C wf).window (ix2 e q) 1 : ℤ) < (C : ℤ) := by
      rw [h1, w1]; exact ⟨by simp, by simpa using q.isLt⟩
    have hall : ∀ a, 0 ≤ (rowScatter N E C wf).start (ix2 e q) idx a + ((rowScatter N E C wf).window (ix2 e q) a : ℤ)
        ∧ (rowScatter N E C wf).start (ix2 e q) idx a + ((rowScatter N E C wf).window (ix2 e q) a : ℤ)
          < ((⟨2, ![N, C]⟩ : Shape).size a : ℤ) := fun a =>
      match a with
      | ⟨0, _⟩ => p0
      | ⟨1, _⟩ => p1
    rw [dif_pos hall, dif_pos hv]
    show some _ = some _
    refine congrArg some (funext fun a => Fin.ext ?_)
    match a with
    | ⟨0, _⟩ =>
      show ((rowScatter N E C wf).start (ix2 e q) idx 0 + ((rowScatter N E C wf).window (ix2 e q) 0 : ℤ)).toNat
        = (idx (ix2 e (0 : Fin 1))).toInt.toNat
      rw [h0, w0]; simp
    | ⟨1, _⟩ =>
      show ((rowScatter N E C wf).start (ix2 e q) idx 1 + ((rowScatter N E C wf).window (ix2 e q) 1 : ℤ)).toNat = q.val
      rw [h1, w1]; simp
  · have hnall : ¬ ∀ a, 0 ≤ (rowScatter N E C wf).start (ix2 e q) idx a + ((rowScatter N E C wf).window (ix2 e q) a : ℤ)
        ∧ (rowScatter N E C wf).start (ix2 e q) idx a + ((rowScatter N E C wf).window (ix2 e q) a : ℤ)
          < ((⟨2, ![N, C]⟩ : Shape).size a : ℤ) := fun h => by
      have h' : 0 ≤ (rowScatter N E C wf).start (ix2 e q) idx 0 + ((rowScatter N E C wf).window (ix2 e q) 0 : ℤ)
        ∧ (rowScatter N E C wf).start (ix2 e q) idx 0 + ((rowScatter N E C wf).window (ix2 e q) 0 : ℤ) < (N : ℤ) := h 0
      rw [h0, w0] at h'
      exact hv ⟨by simpa using h'.1, by simpa using h'.2⟩
    rw [dif_neg hnall, dif_neg hv]
    rfl

/-- The updates of a row scatter that land at `(n, q)`, summed: column `q` of the updates over the edges whose row is `n`. -/
theorem rowScatter_sum {M : Type*} [AddCommMonoid M] {N E C w : ℕ}
    (wf : ScatterDims.WF ⟨2, ![N, C]⟩ ⟨2, ![E, 1]⟩ ⟨2, ![E, C]⟩ [1] [0] [0] 1)
    (idx : IVec ⟨2, ![E, 1]⟩ w) (upd : (⟨2, ![E, C]⟩ : Shape).Idx → M) (n : Fin N) (q : Fin C) :
    ∑ j ∈ Finset.univ.filter (fun j => (rowScatter N E C wf).resultIdx? j idx = some (ix2 n q)), upd j
      = ∑ e ∈ Finset.univ.filter (fun e => dstRow N idx e = some n), upd (ix2 e q) := by
  rw [Finset.sum_filter, Finset.sum_filter, sum_idx2]
  refine Finset.sum_congr rfl fun e _ => ?_
  simp only [rowScatter_resultIdx?]
  cases hd : dstRow N idx e with
  | none => simp
  | some n' =>
    simp only [Option.map_some, Option.some.injEq, ix2_inj]
    by_cases hn : n' = n
    · subst hn; simp
    · simp [hn]

/-- A row scatter-add at the ideal values, read at `(n, q)`: the operand there plus column `q` of the updates summed over the
    edges whose row is `n`. -/
theorem rowScatterAdd_apply {N E C w : ℕ} (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32) (n : Fin N) (q : Fin C) :
    Host.scatterAdd (rowScatter N E C wf) x idx upd (ix2 n q)
      = x (ix2 n q) + ∑ e ∈ Finset.univ.filter (fun e => dstRow N idx e = some n), upd (ix2 e q) := by
  show Ideal.hostScatterAdd (rowScatter N E C wf) x idx upd (ix2 n q) = _
  unfold Ideal.hostScatterAdd
  rw [rowScatter_sum]

/-! ## Scatter-adding numbers -/

/-- The dimension numbers of "add number `e` of `E` into entry `idx[e]` of a vector of `N`". -/
abbrev vecScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vecScatter_start0 {N E w : ℕ} (wf : ScatterDims.WF ⟨1, ![N]⟩ ⟨2, ![E, 1]⟩ ⟨1, ![E]⟩ [] [0] [0] 1)
    (idx : IVec ⟨2, ![E, 1]⟩ w) (e : Fin E) :
    (vecScatter N E wf).start (ix1 e) idx 0 = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vecScatter_window0 {N E : ℕ} (wf : ScatterDims.WF ⟨1, ![N]⟩ ⟨2, ![E, 1]⟩ ⟨1, ![E]⟩ [] [0] [0] 1)
    (e : Fin E) : (vecScatter N E wf).window (ix1 e) 0 = 0 := by
  unfold ScatterDims.window
  rw [dif_neg (show (0 : Fin 1) ∉ (vecScatter N E wf).sKept from by simp [ScatterDims.sKept, Shape.kept])]

/-- Where update `e` of a vector scatter lands: `dstRow e`, or nowhere. -/
theorem vecScatter_resultIdx? {N E w : ℕ} (wf : ScatterDims.WF ⟨1, ![N]⟩ ⟨2, ![E, 1]⟩ ⟨1, ![E]⟩ [] [0] [0] 1)
    (idx : IVec ⟨2, ![E, 1]⟩ w) (e : Fin E) :
    (vecScatter N E wf).resultIdx? (ix1 e) idx = (dstRow N idx e).map fun n => ix1 n := by
  have h0 := vecScatter_start0 wf idx e
  have w0 := vecScatter_window0 wf e
  unfold ScatterDims.resultIdx? dstRow
  by_cases hv : 0 ≤ (idx (ix2 e (0 : Fin 1))).toInt ∧ (idx (ix2 e (0 : Fin 1))).toInt < N
  · have p0 : 0 ≤ (vecScatter N E wf).start (ix1 e) idx 0 + ((vecScatter N E wf).window (ix1 e) 0 : ℤ)
        ∧ (vecScatter N E wf).start (ix1 e) idx 0 + ((vecScatter N E wf).window (ix1 e) 0 : ℤ) < (N : ℤ) := by
      rw [h0, w0]; exact ⟨by simpa using hv.1, by simpa using hv.2⟩
    have hall : ∀ a, 0 ≤ (vecScatter N E wf).start (ix1 e) idx a + ((vecScatter N E wf).window (ix1 e) a : ℤ)
        ∧ (vecScatter N E wf).start (ix1 e) idx a + ((vecScatter N E wf).window (ix1 e) a : ℤ)
          < ((⟨1, ![N]⟩ : Shape).size a : ℤ) := fun a =>
      match a with
      | ⟨0, _⟩ => p0
    rw [dif_pos hall, dif_pos hv]
    show some _ = some _
    refine congrArg some (funext fun a => Fin.ext ?_)
    match a with
    | ⟨0, _⟩ =>
      show ((vecScatter N E wf).start (ix1 e) idx 0 + ((vecScatter N E wf).window (ix1 e) 0 : ℤ)).toNat
        = (idx (ix2 e (0 : Fin 1))).toInt.toNat
      rw [h0, w0]; simp
  · have hnall : ¬ ∀ a, 0 ≤ (vecScatter N E wf).start (ix1 e) idx a + ((vecScatter N E wf).window (ix1 e) a : ℤ)
        ∧ (vecScatter N E wf).start (ix1 e) idx a + ((vecScatter N E wf).window (ix1 e) a : ℤ)
          < ((⟨1, ![N]⟩ : Shape).size a : ℤ) := fun h => by
      have h' : 0 ≤ (vecScatter N E wf).start (ix1 e) idx 0 + ((vecScatter N E wf).window (ix1 e) 0 : ℤ)
        ∧ (vecScatter N E wf).start (ix1 e) idx 0 + ((vecScatter N E wf).window (ix1 e) 0 : ℤ) < (N : ℤ) := h 0
      rw [h0, w0] at h'
      exact hv ⟨by simpa using h'.1, by simpa using h'.2⟩
    rw [dif_neg hnall, dif_neg hv]
    rfl

theorem ix1_inj {a : ℕ} {n n' : Fin a} : ix1 n = ix1 n' ↔ n = n' :=
  ⟨fun h => congrFun h 0, fun h => by rw [h]⟩

/-- A rank-1 index set is its one coordinate range, so a sum over it is the sum over the coordinate. -/
theorem sum_idx1 {M : Type*} [AddCommMonoid M] {n : ℕ} (f : (⟨1, ![n]⟩ : Shape).Idx → M) :
    ∑ i, f i = ∑ a : Fin n, f (ix1 a) :=
  (Equiv.sum_comp (⟨fun a => ix1 a, fun i => i 0, fun _ => rfl, fun i => (eq_ix1 i).symm⟩ : Fin n ≃ (⟨1, ![n]⟩ : Shape).Idx) f).symm

/-- The updates of a vector scatter that land at `n`, summed: the updates over the edges whose entry is `n`. -/
theorem vecScatter_sum {M : Type*} [AddCommMonoid M] {N E w : ℕ}
    (wf : ScatterDims.WF ⟨1, ![N]⟩ ⟨2, ![E, 1]⟩ ⟨1, ![E]⟩ [] [0] [0] 1)
    (idx : IVec ⟨2, ![E, 1]⟩ w) (upd : (⟨1, ![E]⟩ : Shape).Idx → M) (n : Fin N) :
    ∑ j ∈ Finset.univ.filter (fun j => (vecScatter N E wf).resultIdx? j idx = some (ix1 n)), upd j
      = ∑ e ∈ Finset.univ.filter (fun e => dstRow N idx e = some n), upd (ix1 e) := by
  rw [Finset.sum_filter, Finset.sum_filter, sum_idx1]
  refine Finset.sum_congr rfl fun e _ => ?_
  simp only [vecScatter_resultIdx?]
  cases hd : dstRow N idx e with
  | none => simp
  | some n' => simp only [Option.map_some, Option.some.injEq, ix1_inj]

/-- A vector scatter-add at the ideal values, read at `n`: the operand there plus the updates summed over the edges whose
    entry is `n`. -/
theorem vecScatterAdd_apply {N E w : ℕ} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (n : Fin N) :
    Host.scatterAdd (vecScatter N E wf) x idx upd (ix1 n)
      = x (ix1 n) + ∑ e ∈ Finset.univ.filter (fun e => dstRow N idx e = some n), upd (ix1 e) := by
  show Ideal.hostScatterAdd (vecScatter N E wf) x idx upd (ix1 n) = _
  unfold Ideal.hostScatterAdd
  rw [vecScatter_sum]

end Cert.Lib.Segment

end
-- ==== Proof.Host1.lean ====
/-
  Between the two regions the host gathers, for every edge, the perceptron row of the edge's source node, appends a column
  of ones, and scatter-adds the 65-column rows into the edges' destination nodes; the first 64 columns of the result are the
  summed messages and the last one the message count. Read at an index: column `q < 64` of node `n` is the sum, from zero, over the
  edges whose destination is `n`, of feature `q` of the source node's perceptron row, and column 64 is the same sum of ones. The destination set does
  not depend on the column, which is why one 65-column scatter gives both.
-/
import proofs.«131608_j86045374808683_2_alg».proof.Proof.Gen.KernelIdeal.Frame
import proofs.«131608_j86045374808683_2_alg».proof.Proof.Region0
import proofs.«131608_j86045374808683_2_alg».proof.Proof.Spec
import proofs.«131608_j86045374808683_2_alg».proof.Proof.RowOps
import proofs.«131608_j86045374808683_2_alg».proof.Proof.LibSegment
import proofs.«131608_j86045374808683_2_alg».proof.Proof.LibCols
import Idealize.ShloMosaic.Lib.Pipeline.Value
import Idealize.ShloMosaic.Lib.StableHlo.Run

set_option maxRecDepth 16384

noncomputable section

namespace Cert.KernelIdeal.Between

open Idealize.ShloMosaic Idealize.ShloMosaic.TcCoe Idealize.ShloMosaic.Tactic Idealize.SL.Sem Idealize.ShloMosaic.ValueIdx
open Idealize.ShloMosaic.StableHlo
open Cert.KernelIdeal Cert.KernelIdeal.Gen Cert.Spec Cert.Lib.Segment Cert.RowOps

/-- Each edge's source index as the gather takes it: row 0 of the edge list, a negative index wrapped once by the node count. -/
def rowIdx (ei : S2x800000.Idx → BitVec 32) : IVec S800000x1 32 :=
  broadcastInDim S800000x1 ![0] bcast_S800000_S800000x1_0
    (select (cmpi .slt (shapeCast S800000 (extractStridedSlice S1x800000 ![0, 0] ei slices_S2x800000_S1x800000_0_0) shapeCasts_S1x800000_S800000)
        (broadcastInDim S800000 ![] bcast_S_S800000 (constantI S_ 32 0#32)))
      (addi (shapeCast S800000 (extractStridedSlice S1x800000 ![0, 0] ei slices_S2x800000_S1x800000_0_0) shapeCasts_S1x800000_S800000)
        (broadcastInDim S800000 ![] bcast_S_S800000 (constantI S_ 32 50000#32)))
      (shapeCast S800000 (extractStridedSlice S1x800000 ![0, 0] ei slices_S2x800000_S1x800000_0_0) shapeCasts_S1x800000_S800000))

/-- Each edge's destination index as the scatter takes it: row 1 of the edge list. -/
def colIdx (ei : S2x800000.Idx → BitVec 32) : IVec S800000x1 32 :=
  broadcastInDim S800000x1 ![0] bcast_S800000_S800000x1_0
    (shapeCast S800000 (extractStridedSlice S1x800000 ![1, 0] ei slices_S2x800000_S1x800000_1_0) shapeCasts_S1x800000_S800000)

variable (m : (ℓ : Loc nD τ sig) → Buf (Elt Ideal) ℓ) (ρ : Dev nD → PrngReg)

/-- The 65-column scatter's result, as a term of the first region's output and the edge list. -/
def scattered (c : Dev nD) : S50000x65.Idx → EReal :=
  Host.scatterAdd scatter_S50000x65_S800000x1_S800000x65_1_0_0_1
    (broadcastInDim S50000x65 ![] bcast_S_S50000x65 (constant (F := Ideal) S_ .f32 0x00000000#32))
    (colIdx (m ((c : Thread nD τ).loc main_arg1)))
    (concatenate S800000x65 1
      [⟨S800000x64, extf .f32 (Host.gather gather_S50000x64_S800000x1_S800000x64_1_0_n_n_0_1_164 (Region0.nodesMlp m c)
          (rowIdx (m ((c : Thread nD τ).loc main_arg1)))) bitsLt_bf16_f32⟩,
       ⟨S800000x1, broadcastInDim S800000x1 ![] bcast_S_S800000x1 (constant (F := Ideal) S_ .f32 0x3F800000#32)⟩]
      concatenates_S800000x64_S800000x1_S800000x65_d1)

/-! ## Buffers the first region does not own, read back to the launch -/

theorem notArr0 (b : Ref sig .tc) (hb : b ≠ main_arg0 ∧ b ≠ main_v4 ∧ b ≠ main_v5 ∧ b ≠ main_v6) (w : Fin cfg0.W) :
    Pipeline.arrRef spec0 w ≠ b := by
  match w with
  | ⟨0, _⟩ => exact fun h => hb.1 h.symm
  | ⟨1, _⟩ => exact fun h => hb.2.1 h.symm
  | ⟨2, _⟩ => exact fun h => hb.2.2.1 h.symm
  | ⟨3, _⟩ => exact fun h => hb.2.2.2 h.symm

theorem W2_v1 (c : Dev nD) : W2 m ρ c (Proc.devRef .tc main_v1)
    = shapeCast S800000 (extractStridedSlice S1x800000 ![0, 0] (m ((c : Thread nD τ).loc main_arg1)) slices_S2x800000_S1x800000_0_0) shapeCasts_S1x800000_S800000 := by
  rw [W2_of_ne m ρ c main_v1 (notArr0 main_v1 (by decide))]
  show StableHlo.after hostOps0 (W0 m ρ c) (Proc.devRef .tc main_v1) = _
  after_results; rfl

theorem W2_v3 (c : Dev nD) : W2 m ρ c (Proc.devRef .tc main_v3)
    = shapeCast S800000 (extractStridedSlice S1x800000 ![1, 0] (m ((c : Thread nD τ).loc main_arg1)) slices_S2x800000_S1x800000_1_0) shapeCasts_S1x800000_S800000 := by
  rw [W2_of_ne m ρ c main_v3 (notArr0 main_v3 (by decide))]
  show StableHlo.after hostOps0 (W0 m ρ c) (Proc.devRef .tc main_v3) = _
  after_results; rfl

theorem W2_arg (c : Dev nD) (b : Ref sig .tc) (hb : b ≠ main_arg0 ∧ b ≠ main_v4 ∧ b ≠ main_v5 ∧ b ≠ main_v6)
    (hw : StableHlo.after hostOps0 (W0 m ρ c) (Proc.devRef .tc b) = m ((c : Thread nD τ).loc b)) :
    W2 m ρ c (Proc.devRef .tc b) = m ((c : Thread nD τ).loc b) :=
  (W2_of_ne m ρ c b (notArr0 b hb)).trans hw

/-! ## What the second region finds in its windows' arrays -/

theorem V3_arg0 (c : Dev nD) : V3 m ρ c main_arg0 = m ((c : Thread nD τ).loc main_arg0) :=
  ((W4_arr m ρ c 0).trans (((dat1 (V3 m ρ) c).arrAt_in 0 rfl _).trans (A_eq1 (V3 m ρ) c 0))).symm.trans (W4_main_arg0 m ρ c)

theorem V3_v20 (c : Dev nD) : V3 m ρ c main_v20
    = extractStridedSlice S50000x64 ![0, 0] (scattered m c) slices_S50000x65_S50000x64_0_0 := by
  show StableHlo.after hostOps1 (W2 m ρ c) (Proc.devRef .tc main_v20) = _
  after_results
  rw [W2_v1, W2_v3, Region0.W2_v6]
  rfl

theorem V3_v21 (c : Dev nD) : V3 m ρ c main_v21
    = extractStridedSlice S50000x1 ![0, 64] (scattered m c) slices_S50000x65_S50000x1_0_64 := by
  show StableHlo.after hostOps1 (W2 m ρ c) (Proc.devRef .tc main_v21) = _
  after_results
  rw [W2_v1, W2_v3, Region0.W2_v6]
  rfl

/-! ## The scattered matrix at an index -/

/-- Column `q'` of node `n`: from zero, the sum over the edges into `n` of column `q'` of the scattered rows. -/
theorem scattered_apply (c : Dev nD) (n : Fin 50000) (q' : Fin 65) :
    scattered m c (ix2 n q') = ZERO + ∑ e ∈ Finset.univ.filter (fun e => dstRow 50000 (colIdx (m ((c : Thread nD τ).loc main_arg1))) e = some n),
      (concatenate S800000x65 1
        [⟨S800000x64, extf .f32 (Host.gather gather_S50000x64_S800000x1_S800000x64_1_0_n_n_0_1_164 (Region0.nodesMlp m c)
            (rowIdx (m ((c : Thread nD τ).loc main_arg1)))) bitsLt_bf16_f32⟩,
         ⟨S800000x1, broadcastInDim S800000x1 ![] bcast_S_S800000x1 (constant (F := Ideal) S_ .f32 0x3F800000#32)⟩]
        concatenates_S800000x64_S800000x1_S800000x65_d1) (ix2 e q') := by
  unfold scattered
  refine (rowScatterAdd_apply scatter_S50000x65_S800000x1_S800000x65_1_0_0_1_wf _ _ _ n q').trans ?_
  rw [inDim_scalar]
  rfl

/-- The summed messages: feature `q` of node `n`. -/
theorem sums_apply (c : Dev nD) (n : Fin 50000) (q : Fin 64) :
    V3 m ρ c main_v20 (ix2 n q)
      = segSum (dstRow 50000 (colIdx (m ((c : Thread nD τ).loc main_arg1))))
          (fun e => Region0.nodesMlp m c (ix2 (srcRow (by decide : 0 < 50000) (rowIdx (m ((c : Thread nD τ).loc main_arg1))) e) q)) n := by
  have hq' : ∀ h : 0 + q.val < 65, (⟨0 + q.val, h⟩ : Fin 65) = ⟨q.val, by have := q.isLt; omega⟩ := fun h => Fin.ext (Nat.zero_add _)
  rw [V3_v20, Cert.Lib.Cols.slice_cols_apply _ _ n q (by have := q.isLt; omega), hq', scattered_apply]
  unfold segSum
  refine congrArg (ZERO + ·) (Finset.sum_congr rfl fun e _ => ?_)
  have := Cert.Lib.Cols.concat2_cols_fst
    (extf .f32 (Host.gather gather_S50000x64_S800000x1_S800000x64_1_0_n_n_0_1_164 (Region0.nodesMlp m c)
      (rowIdx (m ((c : Thread nD τ).loc main_arg1)))) bitsLt_bf16_f32)
    (broadcastInDim S800000x1 ![] bcast_S_S800000x1 (constant (F := Ideal) S_ .f32 0x3F800000#32))
    concatenates_S800000x64_S800000x1_S800000x65_d1 e q (by have := q.isLt; omega)
  refine (this.trans ?_)
  show Host.gather (rowGather 50000 800000 64 gather_S50000x64_S800000x1_S800000x64_1_0_n_n_0_1_164_wf) (Region0.nodesMlp m c)
    (rowIdx (m ((c : Thread nD τ).loc main_arg1))) (ix2 e q) = _
  rw [rowGather_apply (by decide : 0 < 50000)]

/-- The message count of node `n`. -/
theorem count_apply (c : Dev nD) (n : Fin 50000) :
    V3 m ρ c main_v21 (ix2 n (0 : Fin 1))
      = segSum (dstRow 50000 (colIdx (m ((c : Thread nD τ).loc main_arg1)))) (fun _ => ONE) n := by
  rw [V3_v21, Cert.Lib.Cols.slice_cols_apply _ _ n (0 : Fin 1) (by decide), scattered_apply]
  unfold segSum
  refine congrArg (ZERO + ·) (Finset.sum_congr rfl fun e _ => ?_)
  have := Cert.Lib.Cols.concat2_cols_snd
    (extf .f32 (Host.gather gather_S50000x64_S800000x1_S800000x64_1_0_n_n_0_1_164 (Region0.nodesMlp m c)
      (rowIdx (m ((c : Thread nD τ).loc main_arg1)))) bitsLt_bf16_f32)
    (broadcastInDim S800000x1 ![] bcast_S_S800000x1 (constant (F := Ideal) S_ .f32 0x3F800000#32))
    concatenates_S800000x64_S800000x1_S800000x65_d1 e (0 : Fin 1) (by decide)
  refine (this.trans ?_)
  rw [inDim_scalar]
  rfl

end Cert.KernelIdeal.Between

end
-- ==== Proof.KernelValue.lean ====
/-
  The kernel program's result as one function of its arguments: the second region's output array, with what that region
  found in its windows' arrays read back — the node matrix itself, the summed messages and message counts the host scattered
  between the regions, the gains, biases and weights reshaped or transposed by the host.
-/
import proofs.«131608_j86045374808683_2_alg».proof.Proof.KernelRun
import proofs.«131608_j86045374808683_2_alg».proof.Proof.Region1
import proofs.«131608_j86045374808683_2_alg».proof.Proof.Host1
import proofs.«131608_j86045374808683_2_alg».proof.Proof.Spec
import proofs.«131608_j86045374808683_2_alg».proof.Proof.LibRows
import proofs.«131608_j86045374808683_2_alg».proof.Proof.LibSegment
import Idealize.ShloMosaic.Lib.Pipeline.Value
import Idealize.ShloMosaic.Lib.StableHlo.Run

set_option maxRecDepth 16384

noncomputable section

namespace Cert.KernelIdeal.Whole

open Idealize.ShloMosaic Idealize.ShloMosaic.TcCoe Idealize.ShloMosaic.Tactic Idealize.SL.Sem Idealize.ShloMosaic.ValueIdx
open Idealize.ShloMosaic.StableHlo
open Cert.KernelIdeal Cert.KernelIdeal.Gen Cert.Spec Cert.Lib.Segment

variable [Facts]
variable (m : (ℓ : Loc nD τ sig) → Buf (Elt Ideal) ℓ) (ρ : Dev nD → PrngReg)

/-- The result as a function of the argument arrays. -/
def kernelResult (c : Dev nD) : S50000x64.Idx → EReal :=
  result (m ((c : Thread nD τ).loc main_arg0))
    (srcRow (by decide : 0 < 50000) (Between.rowIdx (m ((c : Thread nD τ).loc main_arg1))))
    (dstRow 50000 (Between.colIdx (m ((c : Thread nD τ).loc main_arg1))))
    (transpose S64x64 [1, 0] (m ((c : Thread nD τ).loc main_arg2)) transposes_S64x64_S64x64_1_0)
    (transpose S64x64 [1, 0] (m ((c : Thread nD τ).loc main_arg3)) transposes_S64x64_S64x64_1_0)
    (fun q => m ((c : Thread nD τ).loc main_arg4) (ix1 q)) (fun q => m ((c : Thread nD τ).loc main_arg5) (ix1 q))
    (fun q => m ((c : Thread nD τ).loc main_arg6) (ix1 q)) (fun q => m ((c : Thread nD τ).loc main_arg7) (ix1 q))
    (fun q => m ((c : Thread nD τ).loc main_arg8) (ix1 q))
    (transpose S128x64 [1, 0] (m ((c : Thread nD τ).loc main_arg9)) transposes_S64x128_S128x64_1_0)
    (transpose S64x64 [1, 0] (m ((c : Thread nD τ).loc main_arg10)) transposes_S64x64_S64x64_1_0)

/-! ## The gains, biases and weights as the second region finds them -/

theorem W2_arg4 (c : Dev nD) : W2 m ρ c (Proc.devRef .tc main_arg4) = m ((c : Thread nD τ).loc main_arg4) :=
  (W2_of_ne m ρ c main_arg4 (Between.notArr0 main_arg4 (by decide))).trans (by
    show StableHlo.after hostOps0 (W0 m ρ c) (Proc.devRef .tc main_arg4) = _
    after_results)
theorem W2_arg5 (c : Dev nD) : W2 m ρ c (Proc.devRef .tc main_arg5) = m ((c : Thread nD τ).loc main_arg5) :=
  (W2_of_ne m ρ c main_arg5 (Between.notArr0 main_arg5 (by decide))).trans (by
    show StableHlo.after hostOps0 (W0 m ρ c) (Proc.devRef .tc main_arg5) = _
    after_results)
theorem W2_arg6 (c : Dev nD) : W2 m ρ c (Proc.devRef .tc main_arg6) = m ((c : Thread nD τ).loc main_arg6) :=
  (W2_of_ne m ρ c main_arg6 (Between.notArr0 main_arg6 (by decide))).trans (by
    show StableHlo.after hostOps0 (W0 m ρ c) (Proc.devRef .tc main_arg6) = _
    after_results)
theorem W2_arg7 (c : Dev nD) : W2 m ρ c (Proc.devRef .tc main_arg7) = m ((c : Thread nD τ).loc main_arg7) :=
  (W2_of_ne m ρ c main_arg7 (Between.notArr0 main_arg7 (by decide))).trans (by
    show StableHlo.after hostOps0 (W0 m ρ c) (Proc.devRef .tc main_arg7) = _
    after_results)
theorem W2_arg8 (c : Dev nD) : W2 m ρ c (Proc.devRef .tc main_arg8) = m ((c : Thread nD τ).loc main_arg8) :=
  (W2_of_ne m ρ c main_arg8 (Between.notArr0 main_arg8 (by decide))).trans (by
    show StableHlo.after hostOps0 (W0 m ρ c) (Proc.devRef .tc main_arg8) = _
    after_results)
theorem W2_arg9 (c : Dev nD) : W2 m ρ c (Proc.devRef .tc main_arg9) = m ((c : Thread nD τ).loc main_arg9) :=
  (W2_of_ne m ρ c main_arg9 (Between.notArr0 main_arg9 (by decide))).trans (by
    show StableHlo.after hostOps0 (W0 m ρ c) (Proc.devRef .tc main_arg9) = _
    after_results)
theorem W2_arg10 (c : Dev nD) : W2 m ρ c (Proc.devRef .tc main_arg10) = m ((c : Thread nD τ).loc main_arg10) :=
  (W2_of_ne m ρ c main_arg10 (Between.notArr0 main_arg10 (by decide))).trans (by
    show StableHlo.after hostOps0 (W0 m ρ c) (Proc.devRef .tc main_arg10) = _
    after_results)

theorem V3_v22 (c : Dev nD) : V3 m ρ c main_v22 = shapeCast S1x64 (m ((c : Thread nD τ).loc main_arg4)) shapeCasts_S64_S1x64 := by
  show StableHlo.after hostOps1 (W2 m ρ c) (Proc.devRef .tc main_v22) = _
  after_results; rw [W2_arg4]; rfl
theorem V3_v23 (c : Dev nD) : V3 m ρ c main_v23 = shapeCast S1x64 (m ((c : Thread nD τ).loc main_arg5)) shapeCasts_S64_S1x64 := by
  show StableHlo.after hostOps1 (W2 m ρ c) (Proc.devRef .tc main_v23) = _
  after_results; rw [W2_arg5]; rfl
theorem V3_v24 (c : Dev nD) : V3 m ρ c main_v24 = shapeCast S1x64 (m ((c : Thread nD τ).loc main_arg6)) shapeCasts_S64_S1x64 := by
  show StableHlo.after hostOps1 (W2 m ρ c) (Proc.devRef .tc main_v24) = _
  after_results; rw [W2_arg6]; rfl
theorem V3_v25 (c : Dev nD) : V3 m ρ c main_v25 = shapeCast S1x64 (m ((c : Thread nD τ).loc main_arg7)) shapeCasts_S64_S1x64 := by
  show StableHlo.after hostOps1 (W2 m ρ c) (Proc.devRef .tc main_v25) = _
  after_results; rw [W2_arg7]; rfl
theorem V3_v26 (c : Dev nD) : V3 m ρ c main_v26 = shapeCast S1x64 (m ((c : Thread nD τ).loc main_arg8)) shapeCasts_S64_S1x64 := by
  show StableHlo.after hostOps1 (W2 m ρ c) (Proc.devRef .tc main_v26) = _
  after_results; rw [W2_arg8]; rfl
theorem V3_v27 (c : Dev nD) : V3 m ρ c main_v27
    = transpose S128x64 [1, 0] (m ((c : Thread nD τ).loc main_arg9)) transposes_S64x128_S128x64_1_0 := by
  show StableHlo.after hostOps1 (W2 m ρ c) (Proc.devRef .tc main_v27) = _
  after_results; rw [W2_arg9]
theorem V3_v28 (c : Dev nD) : V3 m ρ c main_v28
    = transpose S64x64 [1, 0] (m ((c : Thread nD τ).loc main_arg10)) transposes_S64x64_S64x64_1_0 := by
  show StableHlo.after hostOps1 (W2 m ρ c) (Proc.devRef .tc main_v28) = _
  after_results; rw [W2_arg10]

/-- The second region's output array is `result` of the arguments. -/
theorem outArr_eq (c : Dev nD) : Region1.outArr m ρ c = kernelResult m c := by
  funext i
  unfold Region1.outArr kernelResult result
  refine nodeRow_congr (fun q => congrFun (Between.V3_arg0 m ρ c) _) (fun q => Between.sums_apply m ρ c (i 0) q)
    (Between.count_apply m ρ c (i 0))
    (fun q => by rw [V3_v22]; exact Cert.Lib.Rows.shapeCast_vec_row_apply _ _ q)
    (fun q => by rw [V3_v23]; exact Cert.Lib.Rows.shapeCast_vec_row_apply _ _ q)
    (fun q => by rw [V3_v24]; exact Cert.Lib.Rows.shapeCast_vec_row_apply _ _ q)
    (fun q => by rw [V3_v25]; exact Cert.Lib.Rows.shapeCast_vec_row_apply _ _ q)
    (fun q => by rw [V3_v26]; exact Cert.Lib.Rows.shapeCast_vec_row_apply _ _ q)
    (V3_v27 m ρ c) (V3_v28 m ρ c) rfl

/-- The program's run, its result at `kernelResult` of the arguments, the arguments unchanged. -/
theorem run : θ_run defs (onTc (τ := τ) (main (F := Ideal))) ⟨m, fun _ => 0, ρ⟩ (fun r => ∀ c : Dev nD,
      r.2.mem ((c.tc : Thread nD τ).loc main_v29) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans ((Region1.W4_v29 m ρ c).trans (outArr_eq m ρ c)), (h c).2⟩)
    (RunNamed.run_named m ρ)

end Cert.KernelIdeal.Whole

end
-- ==== Proof.RefValue.lean ====
/-
  The reference program's result as the same function of its arguments. It gathers each edge's source row first and applies the
  first perceptron to the gathered rows; since the perceptron acts on a row alone, the message of edge `e` is the perceptron of
  its source node's row. It then scatter-adds the messages and, separately, ones into the destination nodes — the segment sums
  of the specification —, divides, normalises, pushes the node's row away, normalises again and applies the second perceptron,
  operation by operation on the whole matrices. Read at `(n, c)` every stage depends on node `n`'s rows alone.
-/
import proofs.«131608_j86045374808683_2_alg».proof.Proof.ReadP
import proofs.«131608_j86045374808683_2_alg».proof.Proof.Spec
import proofs.«131608_j86045374808683_2_alg».proof.Proof.RowOps
import proofs.«131608_j86045374808683_2_alg».proof.Proof.LibSegment

set_option maxRecDepth 16384

noncomputable section

namespace Cert.ReferenceIdeal.RefValue

open Idealize.ShloMosaic Idealize.ShloMosaic.ValueIdx Cert.ReferenceIdeal Cert.ReferenceIdeal.Gen Cert.ReferenceIdeal.Read Cert.Spec Cert.RowOps Cert.Lib.Segment

variable [Facts]
variable (x0 : (⟨S50000x64, .f32⟩ : BufTy).Contents (Elt Ideal)) (x1 : (⟨S2x800000, .i32⟩ : BufTy).Contents (Elt Ideal))
  (x2 x3 : (⟨S64x64, .f32⟩ : BufTy).Contents (Elt Ideal)) (x4 x5 x6 x7 x8 : (⟨S64, .f32⟩ : BufTy).Contents (Elt Ideal))
  (x9 : (⟨S64x128, .f32⟩ : BufTy).Contents (Elt Ideal)) (x10 : (⟨S64x64, .f32⟩ : BufTy).Contents (Elt Ideal))

/-- Each edge's source node. -/
abbrev src : Fin 800000 → Fin 50000 := srcRow (by decide : 0 < 50000) (val_main_v9 (F := Ideal) x1)
/-- Each edge's destination node, if it has one. -/
abbrev dst : Fin 800000 → Option (Fin 50000) := dstRow 50000 (val_main_v17 (F := Ideal) x1)

/-- The message of edge `e`: the first perceptron of its source node's row. -/
theorem msg_apply (e : Fin 800000) (q : Fin 64) :
    val_main_v15 (F := Ideal) x0 x1 x2 x3 (ix2 e q)
      = mlpRow (fun j => x0 (ix2 (src x1 e) j)) (val_main_v11 (F := Ideal) x2) (val_main_v14 (F := Ideal) x3) q := by
  unfold val_main_v15 val_main_v13 val_main_v12 val_main_call0_v0 val_main_call0_cst
  refine (mlp_host (val_main_v10 (F := Ideal) x0 x1) (val_main_v11 (F := Ideal) x2) (val_main_v14 (F := Ideal) x3) bcast_S_S800000x64 e q).trans ?_
  refine mlpRow_congr (fun j => ?_) rfl rfl rfl
  unfold val_main_v10
  exact rowGather_apply (by decide : 0 < 50000) gather_S50000x64_S800000x1_S800000x64_1_0_n_n_0_1_164_wf x0 _ e j

/-- The summed messages of node `n`. -/
theorem sums_apply (n : Fin 50000) (q : Fin 64) :
    val_main_v18 (F := Ideal) x0 x1 x2 x3 (ix2 n q)
      = segSum (dst x1) (fun e => mlpRow (fun j => x0 (ix2 (src x1 e) j)) (val_main_v11 (F := Ideal) x2) (val_main_v14 (F := Ideal) x3) q) n := by
  unfold val_main_v18
  refine (rowScatterAdd_apply scatter_S50000x64_S800000x1_S800000x64_1_0_0_1_wf (val_main_v16 (F := Ideal))
    (val_main_v17 (F := Ideal) x1) (val_main_v15 (F := Ideal) x0 x1 x2 x3) n q).trans ?_
  unfold segSum val_main_v16 val_main_cst
  rw [inDim_scalar]
  exact congrArg (ZERO + ·) (Finset.sum_congr rfl fun e _ => msg_apply x0 x1 x2 x3 e q)

/-- The message count of node `n`. -/
theorem count_apply (n : Fin 50000) :
    val_main_v22 (F := Ideal) x1 (ix1 n) = segSum (dst x1) (fun _ => ONE) n := by
  have e21 : val_main_v21 (F := Ideal) x1 = val_main_v17 (F := Ideal) x1 := rfl
  unfold val_main_v22
  rw [e21]
  refine (vecScatterAdd_apply scatter_S50000_S800000x1_S800000_n_0_0_1_wf (val_main_v20 (F := Ideal))
    (val_main_v17 (F := Ideal) x1) (val_main_v19 (F := Ideal)) n).trans ?_
  unfold segSum val_main_v20 val_main_cst_2
  rw [inDim_scalar]
  refine congrArg (ZERO + ·) (Finset.sum_congr rfl fun e _ => ?_)
  unfold val_main_v19 val_main_cst_1
  rw [inDim_scalar]
  rfl

theorem hostDivf_apply {s : Shape} (a b : FVec Ideal s .f32) (i : s.Idx) : Host.divf a b i = Ideal.div (a i) (b i) := rfl

/-- The mean message of node `n`. -/
theorem agg_apply (n : Fin 50000) (k : Fin 64) :
    val_main_v27 (F := Ideal) x0 x1 x2 x3 (ix2 n k)
      = aggRow (fun q => val_main_v18 (F := Ideal) x0 x1 x2 x3 (ix2 n q)) (val_main_v22 (F := Ideal) x1 (ix1 n)) k := by
  unfold val_main_v27 aggRow val_main_v26 val_main_v25 val_main_v24 val_main_v23 val_main_cst_3
  generalize val_main_v18 (F := Ideal) x0 x1 x2 x3 = s
  generalize val_main_v22 (F := Ideal) x1 = cv
  rw [hostDivf_apply, inDim_cols, inDim_col, maximumf_apply, inDim_scalar, constant_apply]

/-- The first LayerNorm of node `n`. -/
theorem ln1_apply (n : Fin 50000) (k : Fin 64) :
    val_main_v51 (F := Ideal) x0 x1 x2 x3 x4 x5 (ix2 n k)
      = lnRow (fun k' => val_main_v27 (F := Ideal) x0 x1 x2 x3 (ix2 n k')) (fun q => x4 (ix1 q)) (fun q => x5 (ix1 q)) k := by
  unfold val_main_v51 val_main_v48 lnRow val_main_v47 val_main_v46 val_main_v50 val_main_v49
    val_main_v45 val_main_v44 val_main_v43 val_main_v42 val_main_v41 val_main_cst_8 val_main_v40 val_main_v39 val_main_v38
    val_main_v37 val_main_cst_7 val_main_v36 val_main_v35 val_main_cst_6 val_main_v34 val_main_v33 val_main_v32 val_main_v31
    val_main_v30 val_main_cst_5 val_main_v29 val_main_v28 val_main_cst_4
  generalize val_main_v27 (F := Ideal) x0 x1 x2 x3 = y
  rw [addf_apply, mulf_apply, inDim_rows, inDim_rowvec, inDim_rows, inDim_rowvec]
  exact congrArg (fun s : EReal => s * x4 (ix1 k) + x5 (ix1 k))
    (lnCore_host y reducesTo_S50000x64_S50000_d1 (by decide) h_S_ bcast_S50000_S50000x1_0 bcast_S_S50000x1 bcast_S50000x1_S50000x64_0_1 n k)

/-- Node `n`'s row pushed away from its first LayerNorm. -/
theorem repel_apply (n : Fin 50000) (k : Fin 64) :
    val_main_v56 (F := Ideal) x0 x1 x2 x3 x4 x5 x6 (ix2 n k)
      = repelRow (fun q => x0 (ix2 n q)) (fun q => val_main_v51 (F := Ideal) x0 x1 x2 x3 x4 x5 (ix2 n q)) (fun q => x6 (ix1 q)) k := by
  unfold val_main_v56 val_main_v55 val_main_v52 repelRow val_main_v54 val_main_v53
  generalize val_main_v51 (F := Ideal) x0 x1 x2 x3 x4 x5 = y
  rw [addf_apply, mulf_apply, subf_apply, inDim_rows, inDim_rowvec]

/-- The second LayerNorm of node `n`. -/
theorem ln2_apply (n : Fin 50000) (k : Fin 64) :
    val_main_v80 (F := Ideal) x0 x1 x2 x3 x4 x5 x6 x7 x8 (ix2 n k)
      = lnRow (fun k' => val_main_v56 (F := Ideal) x0 x1 x2 x3 x4 x5 x6 (ix2 n k')) (fun q => x7 (ix1 q)) (fun q => x8 (ix1 q)) k := by
  unfold val_main_v80 val_main_v77 lnRow val_main_v76 val_main_v75 val_main_v79 val_main_v78
    val_main_v74 val_main_v73 val_main_v72 val_main_v71 val_main_v70 val_main_cst_13 val_main_v69 val_main_v68 val_main_v67
    val_main_v66 val_main_cst_12 val_main_v65 val_main_v64 val_main_cst_11 val_main_v63 val_main_v62 val_main_v61 val_main_v60
    val_main_v59 val_main_cst_10 val_main_v58 val_main_v57 val_main_cst_9
  generalize val_main_v56 (F := Ideal) x0 x1 x2 x3 x4 x5 x6 = y
  rw [addf_apply, mulf_apply, inDim_rows, inDim_rowvec, inDim_rows, inDim_rowvec]
  exact congrArg (fun s : EReal => s * x7 (ix1 k) + x8 (ix1 k))
    (lnCore_host y reducesTo_S50000x64_S50000_d1 (by decide) h_S_ bcast_S50000_S50000x1_0 bcast_S_S50000x1 bcast_S50000x1_S50000x64_0_1 n k)

/-- The reference's result is `result` of its arguments. -/
theorem result_eq :
    val_main_v86 (F := Ideal) x0 x1 x2 x3 x4 x5 x6 x7 x8 x9 x10
      = result x0 (src x1) (dst x1) (val_main_v11 (F := Ideal) x2) (val_main_v14 (F := Ideal) x3)
          (fun q => x4 (ix1 q)) (fun q => x5 (ix1 q)) (fun q => x6 (ix1 q)) (fun q => x7 (ix1 q)) (fun q => x8 (ix1 q))
          (val_main_v82 (F := Ideal) x9) (val_main_v85 (F := Ideal) x10) := by
  funext i
  obtain ⟨n, c, rfl⟩ : ∃ (n : Fin 50000) (c : Fin 64), i = ix2 n c := ⟨i 0, i 1, eq_ix2 i⟩
  have e27 : (fun k' => val_main_v27 (F := Ideal) x0 x1 x2 x3 (ix2 n k'))
      = aggRow (fun q => segSum (dst x1) (fun e => mlpRow (fun j => x0 (ix2 (src x1 e) j)) (val_main_v11 (F := Ideal) x2) (val_main_v14 (F := Ideal) x3) q) n)
          (segSum (dst x1) (fun _ => ONE) n) := funext fun k' => by
    rw [agg_apply, count_apply,
      show (fun q => val_main_v18 (F := Ideal) x0 x1 x2 x3 (ix2 n q))
        = fun q => segSum (dst x1) (fun e => mlpRow (fun j => x0 (ix2 (src x1 e) j)) (val_main_v11 (F := Ideal) x2) (val_main_v14 (F := Ideal) x3) q) n
        from funext fun q => sums_apply x0 x1 x2 x3 n q]
  have e51 : (fun k' => val_main_v51 (F := Ideal) x0 x1 x2 x3 x4 x5 (ix2 n k'))
      = lnRow (aggRow (fun q => segSum (dst x1) (fun e => mlpRow (fun j => x0 (ix2 (src x1 e) j)) (val_main_v11 (F := Ideal) x2) (val_main_v14 (F := Ideal) x3) q) n)
          (segSum (dst x1) (fun _ => ONE) n)) (fun q => x4 (ix1 q)) (fun q => x5 (ix1 q)) := funext fun k' => by
    rw [ln1_apply, e27]
  have e56 : (fun k' => val_main_v56 (F := Ideal) x0 x1 x2 x3 x4 x5 x6 (ix2 n k'))
      = repelRow (fun q => x0 (ix2 n q))
          (lnRow (aggRow (fun q => segSum (dst x1) (fun e => mlpRow (fun j => x0 (ix2 (src x1 e) j)) (val_main_v11 (F := Ideal) x2) (val_main_v14 (F := Ideal) x3) q) n)
            (segSum (dst x1) (fun _ => ONE) n)) (fun q => x4 (ix1 q)) (fun q => x5 (ix1 q))) (fun q => x6 (ix1 q)) := funext fun k' => by
    rw [repel_apply, e51]
  unfold val_main_v86 val_main_v84 val_main_v83 val_main_call1_v0 val_main_call1_cst
  refine (mlp_host (val_main_v81 (F := Ideal) x0 x1 x2 x3 x4 x5 x6 x7 x8) (val_main_v82 (F := Ideal) x9) (val_main_v85 (F := Ideal) x10)
    bcast_S_S50000x64 n c).trans ?_
  unfold result nodeRow
  refine mlpRow_congr (fun j => ?_) rfl rfl rfl
  unfold val_main_v81
  rw [concat_cat]
  refine cat_congr (fun k => ?_) (fun k => congrFun e51 k) j
  rw [ln2_apply, e56]

end Cert.ReferenceIdeal.RefValue

end
-- ==== Proof.lean ====
/-
  A message-passing layer over a graph of 50000 nodes and 800000 edges, at the extended reals. Every node receives the mean over
  its incoming edges of a two-layer ReLU perceptron of the edge's source row, the mean is layer-normalised, the node's own row is
  pushed away from it and layer-normalised again, and a second two-layer ReLU perceptron acts on the two normalised rows side by side.

  The two programs differ in two places only. The kernel applies the first perceptron to the 50000 node rows and gathers the
  resulting rows along the edges, where the reference gathers the node rows and applies the perceptron to the 800000 gathered
  rows: the perceptron acts on one row at a time, so the message of an edge is the perceptron of its source row either way
  (the source row is the edge's index read signed, wrapped once and clamped — the same index on both sides). And the kernel
  scatter-adds the messages with a column of ones appended and cuts the 65-column result into sums and counts, where the
  reference scatter-adds the messages and the ones separately: which edges land in a node does not depend on the column, so
  both give, per node and feature, the sum over the edges into the node. Everything after — the division by the larger of
  the count and one, the two LayerNorms, the push, the second perceptron — is the same arithmetic, done by the kernel on blocks
  of 2000 rows with lane sums and by the reference on the whole matrices with host sums; a change of float format is the
  identity here, a matrix product into a zero accumulator is the plain sum over the contracted index, and a sum may be taken
  in any order. No law that needs finite entries is used: the two results are one expression in the argument arrays,
  `Cert.Spec.result`, at every extended-real input.
-/
import proofs.«131608_j86045374808683_2_alg».proof.Defs
import proofs.«131608_j86045374808683_2_alg».proof.Proof.Gen.Kernel
import proofs.«131608_j86045374808683_2_alg».proof.Proof.Gen.Kernel.Skeleton
import proofs.«131608_j86045374808683_2_alg».proof.Proof.Gen.Kernel.Launch
import proofs.«131608_j86045374808683_2_alg».proof.Proof.Gen.Kernel.Points
import proofs.«131608_j86045374808683_2_alg».proof.Proof.Gen.Kernel.Frame
import proofs.«131608_j86045374808683_2_alg».proof.Proof.Gen.KernelIdeal
import proofs.«131608_j86045374808683_2_alg».proof.Proof.Gen.KernelIdeal.Skeleton
import proofs.«131608_j86045374808683_2_alg».proof.Proof.Gen.KernelIdeal.Launch
import proofs.«131608_j86045374808683_2_alg».proof.Proof.Gen.KernelIdeal.Points
import proofs.«131608_j86045374808683_2_alg».proof.Proof.Gen.KernelIdeal.Frame
import proofs.«131608_j86045374808683_2_alg».proof.Proof.Gen.ReferenceIdeal
import proofs.«131608_j86045374808683_2_alg».proof.Proof.Gen.Pre_finite_inputs
import proofs.«131608_j86045374808683_2_alg».proof.Proof.RunP
import proofs.«131608_j86045374808683_2_alg».proof.Proof.ReadP
import proofs.«131608_j86045374808683_2_alg».proof.Proof.KernelValue
import proofs.«131608_j86045374808683_2_alg».proof.Proof.RefValue
import Idealize.ShloMosaic.Adequacy
import Idealize.ShloMosaic.Init

set_option maxRecDepth 16384

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing: there is no conjunct to state. -/
theorem preserves : Cert.preserves_Kernel_KernelIdeal := trivial

/-- Run from memories that agree on the arguments, both programs end with the result array at `Cert.Spec.result` of the arguments. -/
theorem algebraic : Cert.algebraic_KernelIdeal_ReferenceIdeal := by
  intro m ρ m' ρ' _ hagree
  refine ⟨fun c => Cert.KernelIdeal.Whole.kernelResult m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v86_eq, Cert.ReferenceIdeal.RefValue.result_eq]
  obtain ⟨h0, h1, h2, h3, h4, h5, h6, h7, h8, h9, h10⟩ := hagree c
  rw [h0, h1, h2, h3, h4, h5, h6, h7, h8, h9, h10]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
